-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel

variable [Facts]

def fn {F : FTy → Type} [FloatOps F] (main_arg0 : FVec F S32768x32 .f32) (main_arg1 : IVec S32768x32 32) (main_arg2 : IVec S32768x32 1) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  main_v3
-- ==== Kernel.lean ====
abbrev S32768x32 : Shape := ⟨2, ![32768, 32]⟩
abbrev S1x1 : Shape := ⟨2, ![1, 1]⟩
abbrev S256x32 : Shape := ⟨2, ![256, 32]⟩
abbrev S256x32x1 : Shape := ⟨3, ![256, 32, 1]⟩
abbrev S256x1x32 : Shape := ⟨3, ![256, 1, 32]⟩
abbrev S256x32x32 : Shape := ⟨3, ![256, 32, 32]⟩
abbrev S256x1 : Shape := ⟨2, ![256, 1]⟩
abbrev S1 : Shape := ⟨1, ![1]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S32768x32, .f32⟩
  | .hbm, ⟨1, _⟩ => ⟨S32768x32, .i32⟩
  | .hbm, ⟨2, _⟩ => ⟨S32768x32, .i1⟩
  | .hbm, ⟨3, _⟩ => ⟨S32768x32, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i1⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S256x32, .f32⟩
  | .local _ .vmem, ⟨1, _⟩ => ⟨S256x32, .f32⟩
  | .local _ .vmem, ⟨2, _⟩ => ⟨S256x32, .i32⟩
  | .local _ .vmem, ⟨3, _⟩ => ⟨S256x32, .i32⟩
  | .local _ .vmem, ⟨4, _⟩ => ⟨S256x32, .i32⟩
  | .local _ .vmem, ⟨5, _⟩ => ⟨S256x32, .i32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v84 : BitVec 1 := Scalar.cmpi .eq arg0 c127_i32
  let v85 : BitVec 32 := Scalar.extui v84
  let c0_i32_30 : BitVec 32 := 0#32
  let v86 : BitVec 1 := Scalar.cmpi .ne v85 c0_i32_30
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  shapeCasts_S256x32_S256x1x32 : S256x32.ShapeCasts S256x1x32
  broadcasts_S256x32x1_S256x32x32 : S256x32x1.Broadcasts S256x32x32
  broadcasts_S256x1x32_S256x32x32 : S256x1x32.Broadcasts S256x32x32
  reduces_S256x32x32_S256x32 : S256x32x32.Reduces [2] S256x32
  reduces_S256x32x1_S256x1 : S256x32x1.Reduces [1] S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S32768x32.size a
  hwx0_0 : ∀ i : grid0.Coords, EltTy.bits .f32 = 32 ∨ (Rect.block (s := S32768x32) S256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S32768x32.size a
  hwx0_1 : ∀ i : grid0.Coords, EltTy.bits .i32 = 32 ∨ (Rect.block (s := S32768x32) S256x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S32768x32.size a
  hwx0_2 : ∀ i : grid0.Coords, EltTy.bits .i32 = 32 ∨ (Rect.block (s := S32768x32) S256x32.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x32 : Shape := ⟨2, ![32768, 32]⟩
abbrev S_ : Shape := ⟨0, ![]⟩
abbrev S32768x32x1 : Shape := ⟨3, ![32768, 32, 1]⟩
abbrev S32768x1x32 : Shape := ⟨3, ![32768, 1, 32]⟩
abbrev S32768x32x32 : Shape := ⟨3, ![32768, 32, 32]⟩
abbrev S32768 : Shape := ⟨1, ![32768]⟩

abbrev nBuf : Space → Nat
  | .hbm => 86
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768x32, .i32⟩
  | .hbm, ⟨2, _⟩ => ⟨S32768x32, .i1⟩
  | .hbm, ⟨3, _⟩ => ⟨S_, .f32⟩
  | .hbm, ⟨4, _⟩ => ⟨S32768x32, .f32⟩
  | .hbm, ⟨5, _⟩ => ⟨S32768x32, .f32⟩
  | .hbm, ⟨6, _⟩ => ⟨S_, .i32⟩
  | .hbm, ⟨7, _⟩ => ⟨S32768x32, .i32⟩
  | .hbm, ⟨8, _⟩ => ⟨S32768x32, .i1⟩
  | .hbm, ⟨9, _⟩ => ⟨S32768x32, .i1⟩
  | .hbm, ⟨10, _⟩ => ⟨S32768x32x1, .i32⟩
  | .hbm, ⟨11, _⟩ => ⟨S32768x1x32, .i32⟩
  | .hbm, ⟨12, _⟩ => ⟨S32768x32x1, .i1⟩
  | .hbm, ⟨13, _⟩ => ⟨S32768x1x32, .i1⟩
  | .hbm, ⟨14, _⟩ => ⟨S32768x32x32, .i1⟩
  | .hbm, ⟨15, _⟩ => ⟨S32768x32x32, .i1⟩
  | .hbm, ⟨16, _⟩ => ⟨S32768x32x32, .i1⟩
  | .hbm, ⟨17, _⟩ => ⟨S32768x32x32, .i32⟩
  | .hbm, ⟨18, _⟩ => ⟨S32768x32x32, .i32⟩
  | .hbm, ⟨19, _⟩ => ⟨S32768x32x32, .i1⟩
  | .hbm, ⟨20, _⟩ => ⟨S32768x32x32, .i1⟩
  | .hbm, ⟨21, _⟩ => ⟨S32768x32x32, .i32⟩
  | .hbm, ⟨22, _⟩ => ⟨S32768x32x32, .i32⟩
  | .hbm, ⟨23, _⟩ => ⟨S32768x32x32, .i1⟩
  | .hbm, ⟨24, _⟩ => ⟨S32768x32x32, .f32⟩
  | .hbm, ⟨25, _⟩ => ⟨S32768x32x1, .f32⟩
  | .hbm, ⟨26, _⟩ => ⟨S32768x1x32, .f32⟩
  | .hbm, ⟨27, _⟩ => ⟨S32768x32x32, .f32⟩
  | .hbm, ⟨28, _⟩ => ⟨S32768x32x32, .f32⟩
  | .hbm, ⟨29, _⟩ => ⟨S32768x32x32, .f32⟩
  | .hbm, ⟨30, _⟩ => ⟨S32768x32x32, .f32⟩
  | .hbm, ⟨31, _⟩ => ⟨S32768x32x32, .f32⟩
  | .hbm, ⟨32, _⟩ => ⟨S_, .f32⟩
  | .hbm, ⟨33, _⟩ => ⟨S32768x32x32, .f32⟩
  | .hbm, ⟨34, _⟩ => ⟨S32768x32x32, .f32⟩
  | .hbm, ⟨35, _⟩ => ⟨S_, .f32⟩
  | .hbm, ⟨36, _⟩ => ⟨S32768x32x32, .f32⟩
  | .hbm, ⟨37, _⟩ => ⟨S32768x32x32, .f32⟩
  | .hbm, ⟨38, _⟩ => ⟨S32768x32x32, .f32⟩
  | .hbm, ⟨39, _⟩ => ⟨S_, .f32⟩
  | .hbm, ⟨40, _⟩ => ⟨S32768x32x32, .f32⟩
  | .hbm, ⟨41, _⟩ => ⟨S32768x32x32, .f32⟩
  | .hbm, ⟨42, _⟩ => ⟨S32768x32x32, .f32⟩
  | .hbm, ⟨43, _⟩ => ⟨S32768x32x32, .f32⟩
  | .hbm, ⟨44, _⟩ => ⟨S_, .f32⟩
  | .hbm, ⟨45, _⟩ => ⟨S32768x32x32, .f32⟩
  | .hbm, ⟨46, _⟩ => ⟨S32768x32x32, .f32⟩
  | .hbm, ⟨47, _⟩ => ⟨S_, .f32⟩
  | .hbm, ⟨48, _⟩ => ⟨S32768x32x32, .f32⟩
  | .hbm, ⟨49, _⟩ => ⟨S32768x32x32, .f32⟩
  | .hbm, ⟨50, _⟩ => ⟨S_, .f32⟩
  | .hbm, ⟨51, _⟩ => ⟨S32768x32x32, .f32⟩
  | .hbm, ⟨52, _⟩ => ⟨S32768x32x32, .f32⟩
  | .hbm, ⟨53, _⟩ => ⟨S32768x32x32, .f32⟩
  | .hbm, ⟨54, _⟩ => ⟨S32768x32x32, .f32⟩
  | .hbm, ⟨55, _⟩ => ⟨S32768x32x32, .f32⟩
  | .hbm, ⟨56, _⟩ => ⟨S32768x32x32, .f32⟩
  | .hbm, ⟨57, _⟩ => ⟨S32768x32x32, .f32⟩
  | .hbm, ⟨58, _⟩ => ⟨S_, .f32⟩
  | .hbm, ⟨59, _⟩ => ⟨S32768, .f32⟩
  | .hbm, ⟨60, _⟩ => ⟨S_, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .i1⟩
  | .hbm, ⟨65, _⟩ => ⟨S_, .f32⟩
  | .hbm, ⟨66, _⟩ => ⟨S32768, .f32⟩
  | .hbm, ⟨67, _⟩ => ⟨S32768, .f32⟩
  | .hbm, ⟨68, _⟩ => ⟨S32768, .f32⟩
  | .hbm, ⟨69, _⟩ => ⟨S_, .f32⟩
  | .hbm, ⟨70, _⟩ => ⟨S_, .f32⟩
  | .hbm, ⟨71, _⟩ => ⟨S32768, .f32⟩
  | .hbm, ⟨72, _⟩ => ⟨S32768, .f32⟩
  | .hbm, ⟨73, _⟩ => ⟨S32768, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_call0_v0 : Ref sig .tc := ⟨.hbm, 70, rfl⟩
abbrev main_call0_v1 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_call1_v0 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  bcast_S_S32768x32 : S_.BroadcastsInDim S32768x32 (![] : Fin 0 → Fin S32768x32.rank)
  bcast_S32768x32_S32768x32x1_0_1 : S32768x32.BroadcastsInDim S32768x32x1 (![0, 1] : Fin 2 → Fin S32768x32x1.rank)
  bcast_S32768x32_S32768x1x32_0_2 : S32768x32.BroadcastsInDim S32768x1x32 (![0, 2] : Fin 2 → Fin S32768x1x32.rank)
  bcast_S32768x32x1_S32768x32x32_0_1_2 : S32768x32x1.BroadcastsInDim S32768x32x32 (![0, 1, 2] : Fin 3 → Fin S32768x32x32.rank)
  bcast_S32768x1x32_S32768x32x32_0_1_2 : S32768x1x32.BroadcastsInDim S32768x32x32 (![0, 1, 2] : Fin 3 → Fin S32768x32x32.rank)
  bcast_S_S32768x32x32 : S_.BroadcastsInDim S32768x32x32 (![] : Fin 0 → Fin S32768x32x32.rank)
  reducesTo_S32768x32x32_S32768_d1_2 : S32768x32x32.ReducesTo [1, 2] S32768
  h_S_ : 0 < S_.numel
  bcast_S_S32768 : S_.BroadcastsInDim S32768 (![] : Fin 0 → Fin S32768.rank)
  reducesTo_S32768_S_d0 : S32768.ReducesTo [0] S_

variable [Facts₀]

class Facts : Prop extends Facts₀ where

variable [Facts]
-- ==== Proof.Pieces.lean ====
/-
  What one run of the body leaves in its two running totals (and, at the last grid point, in the two outputs), as the
  body's own arithmetic applied to the three blocks it loaded and to the totals it found.

  The body keeps a running loss total and a running count in two one-element scratch buffers. At the first grid point it
  zeroes both before adding the block's contribution; at every later point it adds to what the point before left; at
  the last point it also copies the two totals into the two outputs. Each buffer is stored whole, so what it holds
  afterwards is the last store's value.
-/
import proofs.«170875_j3427383902896_2_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic Idealize.SL.Sem

variable {F : FTy → Type} [FloatOps F]

/-- The running loss total after the body, from the blocks of scores, ranks and mask and the total before. -/
def newLoss (x0 : Vec F S256x32 .f32) (x1 x2 : Vec F S256x32 .i32) (a : Vec F S1x1 .f32) : FVec F S1x1 .f32 :=
  k0_pay12 (k0_pay5 x1 x2) (k0_pay6 x1) (k0_pay7 x0) (k0_pay8 x0 x1) (FloatOps.ofBits .f32 0x3F800000#32) a

/-- The running count after the body, from the blocks of ranks and mask and the count before. -/
def newCnt (x1 x2 : Vec F S256x32 .i32) (a : Vec F S1x1 .f32) : FVec F S1x1 .f32 :=
  k0_pay13 (k0_pay5 x1 x2) a

/-- Both coordinates of the offset of a whole-buffer store are zero. -/
theorem off00 : (![0, 0] : Fin 2 → Nat) = fun _ => 0 := by
  funext a; match a with | ⟨0, _⟩ => rfl | ⟨1, _⟩ => rfl

/-- The first point: the loss total is the body's arithmetic on the zero it has just stored. -/
theorem sout0_A_0_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S256x32 .f32) (x1 : Vec F S256x32 .i32) (x2 : Vec F S256x32 .i32) :
    sout0_A_0 c i arg1 harg1 arg2 harg2 arg3 harg3 arg4 harg4 arg5 harg5 arg6 harg6 arg7 harg7 hc0 hc1 x0 x1 x2 = newLoss x0 x1 x2 k0_pay1 := by
  unfold sout0_A_0
  rw [View.read_writes_eq_canon _ _ _ (scover0_A_0 c i arg1 harg1 arg2 harg2 arg3 harg3 arg4 harg4 arg5 harg5 arg6 harg6 arg7 harg7 hc0 hc1 x0 x1 x2)]
  unfold kernelRun0_A
  dsimp only
  sl_unfold_words
  refine (View.canon_cons_unit_zero (S := S1x1) off00 _ _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- The first point: the count is the body's arithmetic on the zero it has just stored. -/
theorem sout0_A_1_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 : Vec F S256x32 .f32) (x1 : Vec F S256x32 .i32) (x2 : Vec F S256x32 .i32) :
    sout0_A_1 c i arg1 harg1 arg2 harg2 arg3 harg3 arg4 harg4 arg5 harg5 arg6 harg6 arg7 harg7 hc0 hc1 x0 x1 x2 = newCnt x1 x2 k0_pay2 := by
  unfold sout0_A_1
  rw [View.read_writes_eq_canon _ _ _ (scover0_A_1 c i arg1 harg1 arg2 harg2 arg3 harg3 arg4 harg4 arg5 harg5 arg6 harg6 arg7 harg7 hc0 hc1 x0 x1 x2)]
  unfold kernelRun0_A
  dsimp only
  sl_unfold_words
  refine (View.canon_cons_unit_zero (S := S1x1) off00 _ _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- A middle point: the loss total is the body's arithmetic on the total the point before left. -/
theorem sout0_B_0_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S256x32 .f32) (x1 : Vec F S256x32 .i32) (x2 : Vec F S256x32 .i32) (xs0 : Vec F S1x1 .f32) (xs1 : Vec F S1x1 .f32) :
    sout0_B_0 c i arg1 harg1 arg2 harg2 arg3 harg3 arg4 harg4 arg5 harg5 arg6 harg6 arg7 harg7 hc0 hc1 x0 x1 x2 xs0 xs1 = newLoss x0 x1 x2 xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 xs0 xs1)]
  unfold kernelRun0_B
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- A middle point: the count is the body's arithmetic on the count the point before left. -/
theorem sout0_B_1_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 : Vec F S256x32 .f32) (x1 : Vec F S256x32 .i32) (x2 : Vec F S256x32 .i32) (xs0 : Vec F S1x1 .f32) (xs1 : Vec F S1x1 .f32) :
    sout0_B_1 c i arg1 harg1 arg2 harg2 arg3 harg3 arg4 harg4 arg5 harg5 arg6 harg6 arg7 harg7 hc0 hc1 x0 x1 x2 xs0 xs1 = newCnt x1 x2 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 xs0 xs1)]
  unfold kernelRun0_B
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- The last point: the loss total as at a middle point. -/
theorem sout0_C_0_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S256x32 .f32) (x1 : Vec F S256x32 .i32) (x2 : Vec F S256x32 .i32) (xs0 : Vec F S1x1 .f32) (xs1 : Vec F S1x1 .f32) :
    sout0_C_0 c i arg1 harg1 arg2 harg2 arg3 harg3 arg4 harg4 arg5 harg5 arg6 harg6 arg7 harg7 hc0 hc1 x0 x1 x2 xs0 xs1 = newLoss x0 x1 x2 xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 xs0 xs1)]
  unfold kernelRun0_C
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- The last point: the count as at a middle point. -/
theorem sout0_C_1_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S256x32 .f32) (x1 : Vec F S256x32 .i32) (x2 : Vec F S256x32 .i32) (xs0 : Vec F S1x1 .f32) (xs1 : Vec F S1x1 .f32) :
    sout0_C_1 c i arg1 harg1 arg2 harg2 arg3 harg3 arg4 harg4 arg5 harg5 arg6 harg6 arg7 harg7 hc0 hc1 x0 x1 x2 xs0 xs1 = newCnt x1 x2 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 xs0 xs1)]
  unfold kernelRun0_C
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- The last point copies the finished loss total into the first output. -/
theorem out0_C_3_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S256x32 .f32) (x1 : Vec F S256x32 .i32) (x2 : Vec F S256x32 .i32) (xs0 : Vec F S1x1 .f32) (xs1 : Vec F S1x1 .f32) :
    out0_C_3 c i arg1 harg1 arg2 harg2 arg3 harg3 arg4 harg4 arg5 harg5 arg6 harg6 arg7 harg7 hc0 hc1 x0 x1 x2 xs0 xs1 = newLoss x0 x1 x2 xs0 := by
  unfold out0_C_3
  rw [View.read_writes_eq_canon _ _ _ (cover0_C_3 c i arg1 harg1 arg2 harg2 arg3 harg3 arg4 harg4 arg5 harg5 arg6 harg6 arg7 harg7 hc0 hc1 x0 x1 x2 xs0 xs1)]
  unfold kernelRun0_C
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

/-- The last point copies the finished count into the second output. -/
theorem out0_C_4_eq (c : Dev nD) (i : grid0.Coords) (arg1 : Memref sig .tc .vmem S256x32 .f32) (harg1 : arg1.IsWhole) (arg2 : Memref sig .tc .vmem S256x32 .i32) (harg2 : arg2.IsWhole) (arg3 : Memref sig .tc .vmem S256x32 .i32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 : Vec F S256x32 .f32) (x1 : Vec F S256x32 .i32) (x2 : Vec F S256x32 .i32) (xs0 : Vec F S1x1 .f32) (xs1 : Vec F S1x1 .f32) :
    out0_C_4 c i arg1 harg1 arg2 harg2 arg3 harg3 arg4 harg4 arg5 harg5 arg6 harg6 arg7 harg7 hc0 hc1 x0 x1 x2 xs0 xs1 = newCnt x1 x2 xs1 := by
  unfold out0_C_4
  rw [View.read_writes_eq_canon _ _ _ (cover0_C_4 c i arg1 harg1 arg2 harg2 arg3 harg3 arg4 harg4 arg5 harg5 arg6 harg6 arg7 harg7 hc0 hc1 x0 x1 x2 xs0 xs1)]
  unfold kernelRun0_C
  dsimp only
  sl_unfold_words
  refine (View.canon_unit_zero (S := S1x1) off00 _ _).trans ?_
  simp only [View.readAt_eq_ld, harg1.read_unread, harg2.read_unread, harg3.read_unread, harg6.read_unread, harg7.read_unread,
    View.ld_unit_zero (S := S256x32) off00, View.ld_unit_zero (S := S1x1) off00, View.readCov_unit_zero (S := S1x1) _ off00]
  rfl

end Cert.KernelIdeal.Gen

end
-- ==== Proof.Steps.lean ====
/-
  The two running totals after each grid point, and the two outputs after the last, in terms of the point before.

  After the first point the totals are the body's arithmetic applied to the point's three blocks and to zero; after
  every later point, to the point's blocks and to the totals the point before left; the last point leaves the same
  new totals in the two outputs.
-/
import proofs.«170875_j3427383902896_2_alg».proof.Proof.Pieces

set_option maxRecDepth 16384

noncomputable section

namespace Cert.KernelIdeal.Gen

open Idealize.ShloMosaic Idealize.ShloMosaic.TcCoe Idealize.SL.Sem

variable {F : FTy → Type} [FloatOps F]

variable (m : (ℓ : Loc nD τ sig) → Buf (Elt F) ℓ)

/-- The loss total after the first point. -/
theorem loss_first (c : Dev nD) (t : Fin cfg0.N) (h0 : t.val % 128 = 0) (h1 : ¬t.val % 128 = 127) :
    (outsAt0 m c t.val t.isLt).2.2.1 = newLoss (iblk m c 0 t) (iblk m c 1 t) (iblk m c 2 t) k0_pay1 := by
  rw [outsAt0_A m c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- The count after the first point. -/
theorem cnt_first (c : Dev nD) (t : Fin cfg0.N) (h0 : t.val % 128 = 0) (h1 : ¬t.val % 128 = 127) :
    (outsAt0 m c t.val t.isLt).2.2.2 = newCnt (iblk m c 1 t) (iblk m c 2 t) k0_pay2 := by
  rw [outsAt0_A m c t h0 h1]
  dsimp only
  exact sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- The loss total after a middle point, from the one before. -/
theorem loss_mid (c : Dev nD) (t : Fin cfg0.N) (h0 : ¬t.val % 128 = 0) (h1 : ¬t.val % 128 = 127) :
    (outsAt0 m c t.val t.isLt).2.2.1 = newLoss (iblk m c 0 t) (iblk m c 1 t) (iblk m c 2 t) (outsAt0 m c (t.val - 1) (Nat.lt_of_le_of_lt (Nat.sub_le _ _) t.isLt)).2.2.1 := by
  rw [outsAt0_B m c t h0 h1]
  dsimp only
  exact sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The count after a middle point, from the one before. -/
theorem cnt_mid (c : Dev nD) (t : Fin cfg0.N) (h0 : ¬t.val % 128 = 0) (h1 : ¬t.val % 128 = 127) :
    (outsAt0 m c t.val t.isLt).2.2.2 = newCnt (iblk m c 1 t) (iblk m c 2 t) (outsAt0 m c (t.val - 1) (Nat.lt_of_le_of_lt (Nat.sub_le _ _) t.isLt)).2.2.2 := by
  rw [outsAt0_B m c t h0 h1]
  dsimp only
  exact sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The loss total after the last point, from the one before. -/
theorem loss_last (c : Dev nD) (t : Fin cfg0.N) (h0 : ¬t.val % 128 = 0) (h1 : t.val % 128 = 127) :
    (outsAt0 m c t.val t.isLt).2.2.1 = newLoss (iblk m c 0 t) (iblk m c 1 t) (iblk m c 2 t) (outsAt0 m c (t.val - 1) (Nat.lt_of_le_of_lt (Nat.sub_le _ _) t.isLt)).2.2.1 := by
  rw [outsAt0_C m c t h0 h1]
  dsimp only
  exact sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The count after the last point, from the one before. -/
theorem cnt_last (c : Dev nD) (t : Fin cfg0.N) (h0 : ¬t.val % 128 = 0) (h1 : t.val % 128 = 127) :
    (outsAt0 m c t.val t.isLt).2.2.2 = newCnt (iblk m c 1 t) (iblk m c 2 t) (outsAt0 m c (t.val - 1) (Nat.lt_of_le_of_lt (Nat.sub_le _ _) t.isLt)).2.2.2 := by
  rw [outsAt0_C m c t h0 h1]
  dsimp only
  exact sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first output after the last point: the finished loss total. -/
theorem out3_last (c : Dev nD) (t : Fin cfg0.N) (h0 : ¬t.val % 128 = 0) (h1 : t.val % 128 = 127) :
    (outsAt0 m c t.val t.isLt).1 = newLoss (iblk m c 0 t) (iblk m c 1 t) (iblk m c 2 t) (outsAt0 m c (t.val - 1) (Nat.lt_of_le_of_lt (Nat.sub_le _ _) t.isLt)).2.2.1 := by
  rw [outsAt0_C m c t h0 h1]
  dsimp only
  exact out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The second output after the last point: the finished count. -/
theorem out4_last (c : Dev nD) (t : Fin cfg0.N) (h0 : ¬t.val % 128 = 0) (h1 : t.val % 128 = 127) :
    (outsAt0 m c t.val t.isLt).2.1 = newCnt (iblk m c 1 t) (iblk m c 2 t) (outsAt0 m c (t.val - 1) (Nat.lt_of_le_of_lt (Nat.sub_le _ _) t.isLt)).2.2.2 := by
  rw [outsAt0_C m c t h0 h1]
  dsimp only
  exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Gen

end
-- ==== Proof.BlockRead.lean ====
/-
  Which rows of the argument arrays a grid point's blocks hold.

  The grid has 128 points; point t fetches, of each of the three input arrays [32768, 32], the block of 256 consecutive
  rows starting at row 256·t, all 32 columns. So entry (p, j) of a block at point t is entry (256·t + p, j) of the array.
  The two outputs are single blocks [1, 1] at block index (0, 0) at every point.
-/
import proofs.«170875_j3427383902896_2_alg».proof.Proof.Gen.KernelIdeal.Frame
import Idealize.ShloMosaic.Lib.ValueIdx

set_option maxRecDepth 16384

noncomputable section

namespace Cert.KernelIdeal.Gen

open Idealize.ShloMosaic Idealize.ShloMosaic.TcCoe Idealize.ShloMosaic.ValueIdx Idealize.SL.Sem

variable {F : FTy → Type} [FloatOps F]

variable (m : (ℓ : Loc nD τ sig) → Buf (Elt F) ℓ)

/-- The block indices of the five windows at every grid point: the inputs move down the rows with the point, the
    outputs stay. -/
theorem blk_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of a point's block is a row of the array. -/
theorem row_lt (t : Fin cfg0.N) (p : Fin 256) : 256 * t.val + p.val < 32768 := by
  have ht : t.val < 128 := lt_of_lt_of_eq t.isLt N_0
  have hp := p.isLt
  omega

/-- The scores' block at point t, entry (p, j): the scores at row 256·t + p, column j. -/
theorem iblk0_apply (c : Dev nD) (t : Fin cfg0.N) (p : Fin 256) (j : Fin 32) :
    iblk m c 0 t (ix2 p j) = V m c main_arg0 (ix2 ⟨256 * t.val + p.val, row_lt t p⟩ j) := by
  obtain ⟨e0, e1, -⟩ := blk_index t
  show V m c main_arg0 (((cfg0.win 0).blk t).view.emb (ix2 p j)) = _
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 32 + 1 * j.val = j.val; omega

/-- The ranks' block at point t, entry (p, j): the ranks at row 256·t + p, column j. -/
theorem iblk1_apply (c : Dev nD) (t : Fin cfg0.N) (p : Fin 256) (j : Fin 32) :
    iblk m c 1 t (ix2 p j) = V m c main_arg1 (ix2 ⟨256 * t.val + p.val, row_lt t p⟩ j) := by
  obtain ⟨-, -, e0, e1, -⟩ := blk_index t
  show V m c main_arg1 (((cfg0.win 1).blk t).view.emb (ix2 p j)) = _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 32 + 1 * j.val = j.val; omega

/-- The widened mask's block at point t, entry (p, j): the widened mask at row 256·t + p, column j. -/
theorem iblk2_apply (c : Dev nD) (t : Fin cfg0.N) (p : Fin 256) (j : Fin 32) :
    iblk m c 2 t (ix2 p j) = V m c main_v0 (ix2 ⟨256 * t.val + p.val, row_lt t p⟩ j) := by
  obtain ⟨-, -, -, -, e0, e1, -⟩ := blk_index t
  show V m c main_v0 (((cfg0.win 2).blk t).view.emb (ix2 p j)) = _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 32 + 1 * j.val = j.val; omega

/-- The widened mask the region finds: the host widens each mask bit to 32 bits before the launch. -/
theorem V_main_v0 (c : Dev nD) :
    (V m c main_v0 : S32768x32.Idx → BitVec 32) = fun i => (m ((c : Thread nD τ).loc main_arg2) i).setWidth 32 := by
  show StableHlo.after hostOps0 (fun b => m (c, b)) (Proc.devRef .tc main_v0) = _
  after_results
  rfl

end Cert.KernelIdeal.Gen

end
-- ==== Proof.Spec.lean ====
/-
  The pairwise logistic ranking loss, as one function of the three argument arrays.

  A row holds 32 scores x, 32 integer ranks r and 32 mask bits. Entry i of a row COUNTS when its mask bit is set and
  its rank is positive. An ordered pair (i, j) of a row is ON when both entries count and their ranks differ; its
  target is 1 when r i < r j and 0 otherwise, and its loss is the binary cross-entropy of the target against the
  logistic of the score difference, with ε added inside each logarithm:
      -target · log (σ(x i - x j) + ε) - (1 - target) · log ((1 - σ(x i - x j)) + ε).
  A row's loss is the sum of the losses of its pairs that are on, divided by their number when there is one, and 0 when
  there is none. The result is the mean of the rows' losses over the rows that have a pair on, and 0 when no row has.
  Everything is read on the extended reals.
-/
import Idealize.ShloMosaic.PureOps.Ideal
import Idealize.ShloMosaic.Lib.ValueIdx

noncomputable section

namespace RankNet

open Idealize.ShloMosaic Idealize.ShloMosaic.ValueIdx

/-- The ε inside the logarithms: the binary32 number nearest 1e-8. -/
def eps : EReal := Ideal.ofBits .f32 0x322BCC77#32

/-- An entry counts when its mask bit is set and its rank is positive (as a bit). -/
def valid (r : BitVec 32) (mk : BitVec 1) : BitVec 1 := IntOp.andi mk (IntOp.cmpi .sgt r 0#32)

/-- 1 when both entries count and their ranks differ, else 0. -/
def pairOn (ri rj : BitVec 32) (vi vj : BitVec 1) : EReal :=
  (((IntOp.andi (IntOp.andi vi vj) (IntOp.cmpi .ne ri rj)).toNat : ℝ) : EReal)

/-- The pair's target: 1 when the first entry ranks before the second, else 0. -/
def target (ri rj : BitVec 32) : EReal := (((IntOp.cmpi .slt ri rj).toNat : ℝ) : EReal)

/-- The pair's cross-entropy against the logistic of the score difference. -/
def pairLoss (xi xj : EReal) (ri rj : BitVec 32) : EReal :=
  (-(target ri rj)) * Ideal.log (Ideal.logistic (xi - xj) + eps)
    - (1 - target ri rj) * Ideal.log ((1 - Ideal.logistic (xi - xj)) + eps)

/-- A row's summed loss over its pairs that are on. -/
def rowSum (x : Fin 32 → EReal) (r : Fin 32 → BitVec 32) (mk : Fin 32 → BitVec 1) : EReal :=
  ∑ i : Fin 32, ∑ j : Fin 32,
    pairLoss (x i) (x j) (r i) (r j) * pairOn (r i) (r j) (valid (r i) (mk i)) (valid (r j) (mk j))

/-- The number of a row's pairs that are on. -/
def rowCnt (r : Fin 32 → BitVec 32) (mk : Fin 32 → BitVec 1) : EReal :=
  ∑ i : Fin 32, ∑ j : Fin 32, pairOn (r i) (r j) (valid (r i) (mk i)) (valid (r j) (mk j))

/-- Whether a row has a pair on (as a bit). -/
def rowHas (r : Fin 32 → BitVec 32) (mk : Fin 32 → BitVec 1) : BitVec 1 := Ideal.cmp .ogt (rowCnt r mk) 0

/-- A row's loss: the mean over its pairs that are on, 0 when it has none. -/
def rowLoss (x : Fin 32 → EReal) (r : Fin 32 → BitVec 32) (mk : Fin 32 → BitVec 1) : EReal :=
  Scalar.select (rowHas r mk) (Ideal.div (rowSum x r mk) (max (rowCnt r mk) 1)) 0

/-- 1 for a row that has a pair on, else 0. -/
def rowInd (r : Fin 32 → BitVec 32) (mk : Fin 32 → BitVec 1) : EReal := (((rowHas r mk).toNat : ℝ) : EReal)

/-- The rows' losses summed over the whole batch. -/
def total (X : (⟨2, ![32768, 32]⟩ : Shape).Idx → EReal) (R : (⟨2, ![32768, 32]⟩ : Shape).Idx → BitVec 32)
    (M : (⟨2, ![32768, 32]⟩ : Shape).Idx → BitVec 1) : EReal :=
  ∑ b : Fin 32768, rowLoss (fun j => X (ix2 b j)) (fun j => R (ix2 b j)) (fun j => M (ix2 b j))

/-- The number of rows of the batch that have a pair on. -/
def count (R : (⟨2, ![32768, 32]⟩ : Shape).Idx → BitVec 32) (M : (⟨2, ![32768, 32]⟩ : Shape).Idx → BitVec 1) : EReal :=
  ∑ b : Fin 32768, rowInd (fun j => R (ix2 b j)) (fun j => M (ix2 b j))

/-- The loss from the two batch totals: their quotient when some row has a pair on, else 0. -/
def finish (tot cnt : EReal) : EReal := Scalar.select (Ideal.cmp .ogt cnt 0) (Ideal.div tot (max cnt 1)) 0

/-- The ranking loss of the batch. -/
def result (X : (⟨2, ![32768, 32]⟩ : Shape).Idx → EReal) (R : (⟨2, ![32768, 32]⟩ : Shape).Idx → BitVec 32)
    (M : (⟨2, ![32768, 32]⟩ : Shape).Idx → BitVec 1) : EReal :=
  finish (total X R M) (count R M)

end RankNet

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.BlockSums.lean ====
/-
  One block of 256 rows, as the kernel computes it at the extended reals: what the body adds to its two running
  totals is the sum over the block's rows of the rows' losses, and the number of the block's rows that have a pair on.
-/
import proofs.«170875_j3427383902896_2_alg».proof.Proof.Gen.KernelIdeal.Skeleton
import proofs.«170875_j3427383902896_2_alg».proof.Proof.Spec
import proofs.«170875_j3427383902896_2_alg».proof.Proof.LibKeepdims
import proofs.«170875_j3427383902896_2_alg».proof.Proof.LibKeepdimsCol
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace RankNet.Block

open Idealize.ShloMosaic Idealize.ShloMosaic.ValueIdx Cert.KernelIdeal Cert.KernelIdeal.Gen

/-! ## Layout and lane sums read at coordinates -/

/-- A rank-2 array cast to a trailing unit axis, [a, b] → [a, b, 1], reads at (p, i, u) the array at (p, i): both
    sit at row-major position p · b + i. -/
theorem castCol_apply {α : Type} {a b : ℕ} (v : (⟨2, ![a, b]⟩ : Shape).Idx → α)
    (h : (⟨2, ![a, b]⟩ : Shape).ShapeCasts ⟨3, ![a, b, 1]⟩) (p : Fin a) (i : Fin b) (u : Fin 1) :
    shapeCast ⟨3, ![a, b, 1]⟩ v h (ix3 p i u) = v (ix2 p i) := by
  refine shapeCast_apply v h (ix3 p i u) (ix2 p i) ?_
  have hu : u.val = 0 := by omega
  rw [Shape.rowMajor_val_two, Shape.rowMajor_val_three]
  show p.val * b + i.val = (p.val * b + i.val) * 1 + u.val
  omega

/-- The sum over the last axis of a [256, 32, 32] array, at (p, i), is the sum over j of the array at (p, i, j). -/
theorem sum_axis2 (src : FVec Ideal S256x32x32 .f32) (h : S256x32x32.Reduces [2] S256x32) (hφ : FKind.Formats .f32)
    (hacc : (0x00000000#32 : BitVec 32) = FKind.add.neutral .f32 hφ) (p : Fin 256) (i : Fin 32) :
    multiReduction .add [2] S256x32 src 0x00000000#32 h hφ hacc (ix2 p i) = ∑ j : Fin 32, src (ix3 p i j) := by
  refine (Ideal.multiReduction_add_single src _ h hφ hacc (ix2 p i)).trans ?_
  refine Finset.sum_congr rfl fun j _ => congrArg src ?_
  funext c
  match c with
  | ⟨0, _⟩ => exact Fin.ext rfl
  | ⟨1, _⟩ => exact Fin.ext rfl
  | ⟨2, _⟩ => exact Fin.ext rfl

/-- The sum over the middle axis of a [256, 32, 1] array, at (p, u), is the sum over i of the array at (p, i, u). -/
theorem sum_axis1 (src : FVec Ideal S256x32x1 .f32) (h : S256x32x1.Reduces [1] S256x1) (hφ : FKind.Formats .f32)
    (hacc : (0x00000000#32 : BitVec 32) = FKind.add.neutral .f32 hφ) (p : Fin 256) (u : Fin 1) :
    multiReduction .add [1] S256x1 src 0x00000000#32 h hφ hacc (ix2 p u) = ∑ i : Fin 32, src (ix3 p i u) := by
  refine (Ideal.multiReduction_add_single src _ h hφ hacc (ix2 p u)).trans ?_
  refine Finset.sum_congr rfl fun i _ => congrArg src ?_
  funext c
  match c with
  | ⟨0, _⟩ => exact Fin.ext rfl
  | ⟨1, _⟩ => exact Fin.ext rfl
  | ⟨2, _⟩ => exact Fin.ext rfl

/-- The sum over the rows of a [256, 1] column, at u, is the sum over p of the column at (p, u). -/
theorem sum_axis0 (src : FVec Ideal S256x1 .f32) (h : S256x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ p : Fin 256, src (ix2 p u) := by
  refine (Ideal.multiReduction_add_single src _ h hφ hacc (ix1 u)).trans ?_
  refine Finset.sum_congr rfl fun p _ => congrArg src ?_
  funext c
  match c with
  | ⟨0, _⟩ => exact Fin.ext rfl
  | ⟨1, _⟩ => exact Fin.ext rfl

/-! ## Bits as numbers -/

/-- A bit widened to 32 bits and read as a signed integer is the bit's value. -/
theorem toInt_setWidth_bit (b : BitVec 1) : (b.setWidth 32).toInt = (b.toNat : ℤ) := by
  obtain rfl | rfl := BitVec.eq_zero_or_eq_one b <;> rfl

/-- The integer product of three widened bits, read as a signed integer, is the value of their conjunction. -/
theorem toInt_mul_bits (a b c : BitVec 1) :
    (IntOp.muli (IntOp.muli (a.setWidth 32) (b.setWidth 32)) (c.setWidth 32)).toInt
      = ((IntOp.andi (IntOp.andi a b) c).toNat : ℤ) := by
  obtain rfl | rfl := BitVec.eq_zero_or_eq_one a <;> obtain rfl | rfl := BitVec.eq_zero_or_eq_one b <;>
    obtain rfl | rfl := BitVec.eq_zero_or_eq_one c <;> rfl

/-! ## The kernel's arrays of pairs read at (p, i, j) -/

section Pairs
variable (x0 : Vec Ideal S256x32 .f32) (x1 x2 : Vec Ideal S256x32 .i32) (p : Fin 256) (i j : Fin 32)

/-- The pair indicator, as an integer: the product of the two entries' validity bits and of the bit "ranks differ". -/
theorem pay5_apply :
    k0_pay5 (F := Ideal) x1 x2 (ix3 p i j)
      = IntOp.muli (IntOp.muli ((RankNet.valid (x1 (ix2 p i)) (IntOp.cmpi .ne (x2 (ix2 p i)) 0#32)).setWidth 32)
            ((RankNet.valid (x1 (ix2 p j)) (IntOp.cmpi .ne (x2 (ix2 p j)) 0#32)).setWidth 32))
          ((IntOp.cmpi .ne (x1 (ix2 p i)) (x1 (ix2 p j))).setWidth 32) := by
  unfold k0_pay5 k0_pay3 k0_pay4
  dsimp only
  simp only [muli, extui]
  rw [Cert.Lib.Keepdims.castCol_broadcast_apply, Cert.Lib.Keepdims.castRow_broadcast_apply]
  simp only [cmpi]
  rw [Cert.Lib.Keepdims.castCol_broadcast_apply, Cert.Lib.Keepdims.castRow_broadcast_apply]
  simp only [andi, cmpi, shapeCast_self, broadcast_apply]
  rfl

/-- … so, as a number, it is 1 when the pair is on and 0 otherwise. -/
theorem sitofp_pay5_apply :
    FloatOps.sitofp (F := Ideal) .f32 (k0_pay5 (F := Ideal) x1 x2 (ix3 p i j))
      = RankNet.pairOn (x1 (ix2 p i)) (x1 (ix2 p j)) (RankNet.valid (x1 (ix2 p i)) (IntOp.cmpi .ne (x2 (ix2 p i)) 0#32))
          (RankNet.valid (x1 (ix2 p j)) (IntOp.cmpi .ne (x2 (ix2 p j)) 0#32)) := by
  rw [pay5_apply]
  show (((IntOp.muli _ _).toInt : ℝ) : EReal) = _
  rw [toInt_mul_bits]
  rfl

/-- The pair's target: 1 when the first entry ranks before the second, else 0. -/
theorem pay6_apply : k0_pay6 (F := Ideal) x1 (ix3 p i j) = RankNet.target (x1 (ix2 p i)) (x1 (ix2 p j)) := by
  unfold k0_pay6 k0_pay3 k0_pay4
  dsimp only
  simp only [sitofp, extui, cmpi]
  rw [Cert.Lib.Keepdims.castCol_broadcast_apply, Cert.Lib.Keepdims.castRow_broadcast_apply]
  show (((BitVec.setWidth 32 _).toInt : ℝ) : EReal) = _
  rw [toInt_setWidth_bit]
  rfl

/-- The logistic of the score difference. -/
theorem pay7_apply : k0_pay7 (F := Ideal) x0 (ix3 p i j) = Ideal.logistic (x0 (ix2 p i) - x0 (ix2 p j)) := by
  unfold k0_pay7
  simp only [logistic, subf]
  rw [Cert.Lib.Keepdims.castCol_broadcast_apply, Cert.Lib.Keepdims.castRow_broadcast_apply]
  simp only [mulf, broadcast_apply]
  show Ideal.logistic (x0 (ix2 p i) * Ideal.ofBits .f32 0x3F800000#32 - x0 (ix2 p j) * Ideal.ofBits .f32 0x3F800000#32) = _
  rw [Ideal.ofBits_one_f32, mul_one, mul_one]

/-- Minus the target times the logarithm of the logistic (plus ε). -/
theorem pay8_apply :
    k0_pay8 (F := Ideal) x0 x1 (ix3 p i j)
      = (-(RankNet.target (x1 (ix2 p i)) (x1 (ix2 p j)))) * Ideal.log (Ideal.logistic (x0 (ix2 p i) - x0 (ix2 p j)) + RankNet.eps) := by
  unfold k0_pay8
  simp only [mulf, subf, log, addf, broadcast_apply]
  rw [pay6_apply, pay7_apply]
  show (Ideal.ofBits .f32 0x00000000#32 - _) * Ideal.log (_ + RankNet.eps) = _
  rw [Ideal.ofBits_zero_f32, zero_sub]

end Pairs

/-! ## The row statistics, for any array of pair indicators -/

section Rows
variable (v26 : IVec S256x32x32 32)

/-- The number of a row's pairs that count: the double sum of the indicator over the row's pairs. -/
theorem pay10_apply (p : Fin 256) (u : Fin 1) :
    k0_pay10 (F := Ideal) v26 (ix2 p u)
      = ∑ i : Fin 32, ∑ j : Fin 32, FloatOps.sitofp (F := Ideal) .f32 (v26 (ix3 p i j)) := by
  unfold k0_pay10
  refine (sum_axis1 _ _ _ _ p u).trans ?_
  refine Finset.sum_congr rfl fun i _ => ?_
  refine (castCol_apply _ _ p i u).trans ?_
  exact sum_axis2 _ _ _ _ p i

/-- Whether a row has a pair that counts: its number of pairs is above zero. -/
theorem pay11_apply (p : Fin 256) (u : Fin 1) :
    k0_pay11 (F := Ideal) v26 (ix2 p u) = Ideal.cmp .ogt (k0_pay10 (F := Ideal) v26 (ix2 p u)) 0 := by
  unfold k0_pay11
  show Ideal.cmp .ogt (k0_pay10 (F := Ideal) v26 (ix2 p u)) (Ideal.ofBits .f32 0x00000000#32) = _
  rw [Ideal.ofBits_zero_f32]

/-- A column's guarded quotient at an entry: select (c, a / max (b, 1), 0) entry by entry. -/
theorem select_div_apply (c : IVec S256x1 1) (a b : FVec Ideal S256x1 .f32) (q : S256x1.Idx) :
    select c (divf a (maximumf b (broadcast S256x1 (Scalar.ofBits (F := Ideal) .f32 0x3F800000#32))))
        (broadcast S256x1 (Scalar.ofBits (F := Ideal) .f32 0x00000000#32)) q
      = Scalar.select (c q) (Ideal.div (a q) (max (b q) 1)) 0 := by
  show Scalar.select (c q) (Ideal.div (a q) (max (b q) (Ideal.ofBits .f32 0x3F800000#32))) (Ideal.ofBits .f32 0x00000000#32) = _
  rw [Ideal.ofBits_one_f32, Ideal.ofBits_zero_f32]

/-- The new running loss total: the old one plus, over the block's rows, the row's summed pair terms divided by the
    row's number of pairs (at least 1), where the row has a pair, and 0 where it has none. -/
theorem pay12_apply (v31 v37 v43 : FVec Ideal S256x32x32 .f32) (c : Ideal .f32) (acc : Vec Ideal S1x1 .f32) (u v : Fin 1) :
    k0_pay12 (F := Ideal) v26 v31 v37 v43 c acc (ix2 u v)
      = acc (ix2 u v) + ∑ p : Fin 256,
          Scalar.select (k0_pay11 (F := Ideal) v26 (ix2 p u))
            (Ideal.div (∑ i : Fin 32, ∑ j : Fin 32,
                (v43 (ix3 p i j) - (c - v31 (ix3 p i j)) * Ideal.log ((1 - v37 (ix3 p i j)) + RankNet.eps))
                  * FloatOps.sitofp (F := Ideal) .f32 (v26 (ix3 p i j)))
              (max (k0_pay10 (F := Ideal) v26 (ix2 p u)) 1)) 0 := by
  unfold k0_pay12
  rw [shapeCast_self]
  refine congrArg (acc (ix2 u v) + ·) ?_
  refine (Cert.LibKeepdimsCol.shapeCast_a_a1_apply _ _ u v).trans ?_
  refine (sum_axis0 _ _ _ _ u).trans ?_
  refine Finset.sum_congr rfl fun p _ => ?_
  refine (select_div_apply _ _ _ _).trans ?_
  refine congrArg (fun t => Scalar.select (k0_pay11 (F := Ideal) v26 (ix2 p u))
    (Ideal.div t (max (k0_pay10 (F := Ideal) v26 (ix2 p u)) 1)) 0) ?_
  refine (sum_axis1 _ _ _ _ p u).trans ?_
  refine Finset.sum_congr rfl fun i _ => ?_
  refine (castCol_apply _ _ p i u).trans ?_
  refine (sum_axis2 _ _ _ _ p i).trans ?_
  refine Finset.sum_congr rfl fun j _ => ?_
  show (v43 (ix3 p i j) - (c - v31 (ix3 p i j)) * Ideal.log ((Ideal.ofBits .f32 0x3F800000#32 - v37 (ix3 p i j)) + RankNet.eps))
      * FloatOps.sitofp (F := Ideal) .f32 (v26 (ix3 p i j)) = _
  rw [Ideal.ofBits_one_f32]

/-- The new running count: the old one plus the number of the block's rows that have a pair. -/
theorem pay13_apply (acc : Vec Ideal S1x1 .f32) (u v : Fin 1) :
    k0_pay13 (F := Ideal) v26 acc (ix2 u v)
      = acc (ix2 u v) + ∑ p : Fin 256, (((k0_pay11 (F := Ideal) v26 (ix2 p u)).toNat : ℝ) : EReal) := by
  unfold k0_pay13
  rw [shapeCast_self]
  refine congrArg (acc (ix2 u v) + ·) ?_
  refine (Cert.LibKeepdimsCol.shapeCast_a_a1_apply _ _ u v).trans ?_
  refine (sum_axis0 _ _ _ _ u).trans ?_
  refine Finset.sum_congr rfl fun p _ => ?_
  show ((((k0_pay11 (F := Ideal) v26 (ix2 p u)).setWidth 32).toInt : ℝ) : EReal) = _
  rw [toInt_setWidth_bit]
  rfl

end Rows

/-! ## A row of the block against the specification -/

section Row
variable (x0 : Vec Ideal S256x32 .f32) (x1 x2 : Vec Ideal S256x32 .i32) (p : Fin 256) (u : Fin 1)

/-- The kernel's number of pairs of row p is the specification's. -/
theorem row_cnt :
    k0_pay10 (F := Ideal) (k0_pay5 (F := Ideal) x1 x2) (ix2 p u)
      = RankNet.rowCnt (fun j : Fin 32 => x1 (ix2 p j)) (fun j : Fin 32 => IntOp.cmpi .ne (x2 (ix2 p j)) 0#32) := by
  rw [pay10_apply]
  unfold RankNet.rowCnt
  exact Finset.sum_congr rfl fun i _ => Finset.sum_congr rfl fun j _ => sitofp_pay5_apply x1 x2 p i j

/-- The kernel's bit "row p has a pair" is the specification's. -/
theorem row_has :
    k0_pay11 (F := Ideal) (k0_pay5 (F := Ideal) x1 x2) (ix2 p u)
      = RankNet.rowHas (fun j : Fin 32 => x1 (ix2 p j)) (fun j : Fin 32 => IntOp.cmpi .ne (x2 (ix2 p j)) 0#32) := by
  rw [pay11_apply, row_cnt]
  rfl

/-- The kernel's summed pair terms of row p are the specification's summed losses over the pairs that are on. -/
theorem row_sum :
    (∑ i : Fin 32, ∑ j : Fin 32,
        (k0_pay8 (F := Ideal) x0 x1 (ix3 p i j)
            - (FloatOps.ofBits (F := Ideal) .f32 0x3F800000#32 - k0_pay6 (F := Ideal) x1 (ix3 p i j))
              * Ideal.log ((1 - k0_pay7 (F := Ideal) x0 (ix3 p i j)) + RankNet.eps))
          * FloatOps.sitofp (F := Ideal) .f32 (k0_pay5 (F := Ideal) x1 x2 (ix3 p i j)))
      = RankNet.rowSum (fun j : Fin 32 => x0 (ix2 p j)) (fun j : Fin 32 => x1 (ix2 p j))
          (fun j : Fin 32 => IntOp.cmpi .ne (x2 (ix2 p j)) 0#32) := by
  unfold RankNet.rowSum
  refine Finset.sum_congr rfl fun i _ => Finset.sum_congr rfl fun j _ => ?_
  rw [pay8_apply, pay6_apply, pay7_apply, sitofp_pay5_apply, Ideal.ofBits_def, Ideal.ofBits_one_f32]
  rfl

end Row

/-- The body's new running loss total: the old one plus the block's rows' losses. -/
theorem loss_block (x0 : Vec Ideal S256x32 .f32) (x1 x2 : Vec Ideal S256x32 .i32) (acc : Vec Ideal S1x1 .f32) (y : S1x1.Idx) :
    k0_pay12 (F := Ideal) (k0_pay5 (F := Ideal) x1 x2) (k0_pay6 (F := Ideal) x1) (k0_pay7 (F := Ideal) x0) (k0_pay8 (F := Ideal) x0 x1)
        (FloatOps.ofBits .f32 0x3F800000#32) acc y
      = acc y + ∑ p : Fin 256, RankNet.rowLoss (fun j : Fin 32 => x0 (ix2 p j)) (fun j : Fin 32 => x1 (ix2 p j))
          (fun j : Fin 32 => IntOp.cmpi .ne (x2 (ix2 p j)) 0#32) := by
  obtain ⟨u, v, rfl⟩ : ∃ (u v : Fin 1), y = ix2 u v := ⟨y 0, y 1, eq_ix2 y⟩
  rw [pay12_apply]
  refine congrArg (acc (ix2 u v) + ·) (Finset.sum_congr rfl fun p _ => ?_)
  rw [row_has, row_sum, row_cnt]
  rfl

/-- The body's new running count: the old one plus the number of the block's rows that have a pair on. -/
theorem count_block (x1 x2 : Vec Ideal S256x32 .i32) (acc : Vec Ideal S1x1 .f32) (y : S1x1.Idx) :
    k0_pay13 (F := Ideal) (k0_pay5 (F := Ideal) x1 x2) acc y
      = acc y + ∑ p : Fin 256, RankNet.rowInd (fun j : Fin 32 => x1 (ix2 p j))
          (fun j : Fin 32 => IntOp.cmpi .ne (x2 (ix2 p j)) 0#32) := by
  obtain ⟨u, v, rfl⟩ : ∃ (u v : Fin 1), y = ix2 u v := ⟨y 0, y 1, eq_ix2 y⟩
  rw [pay13_apply]
  refine congrArg (acc (ix2 u v) + ·) (Finset.sum_congr rfl fun p _ => ?_)
  rw [row_has]
  rfl

end RankNet.Block

end
-- ==== Proof.LibBlockSum.lean ====
/-
  Regrouping a long sum into consecutive blocks.

  A sum over `a * b` consecutive indices is the sum, over the `a` blocks, of the sum over the `b`
  indices inside each block: index `k` of the long sum is `j + b * i` for block `i` and offset `j`.
  Only commutativity and associativity of addition are used, so the law holds in every commutative
  additive monoid — in particular on the extended reals, infinities included.
-/
import Idealize.ShloMosaic.PureOps.Ideal

namespace Cert.BlockSum

open BigOperators

/-- The sum over `Fin (a * b)` split into `a` blocks of `b` consecutive terms. -/
theorem sum_blocks {M : Type*} [AddCommMonoid M] (a b : ℕ) (f : Fin (a * b) → M) :
    ∑ k : Fin (a * b), f k = ∑ i : Fin a, ∑ j : Fin b, f (finProdFinEquiv (i, j)) := by
  rw [← finProdFinEquiv.sum_comp, Fintype.sum_prod_type]

/-- The position of offset `j` of block `i` in the long sum. -/
theorem block_index_val (a b : ℕ) (i : Fin a) (j : Fin b) :
    (finProdFinEquiv (i, j) : Fin (a * b)).val = j.val + b * i.val := rfl

/-- The same law for a function of the natural position: the long sum runs over positions `0 … a·b − 1`, block `s`
    holds positions `b·s … b·s + b − 1`, and the blocks are counted by `Finset.range a`. -/
theorem sum_range_blocks {M : Type*} [AddCommMonoid M] (a b : ℕ) (f : ℕ → M) :
    ∑ k : Fin (a * b), f k.val = ∑ s ∈ Finset.range a, ∑ j : Fin b, f (b * s + j.val) := by
  rw [Finset.sum_range, sum_blocks a b (fun k => f k.val)]
  refine Finset.sum_congr rfl fun i _ => Finset.sum_congr rfl fun j _ => ?_
  rw [block_index_val, Nat.add_comm]

/-- 4096 terms as 8 blocks of 512. -/
theorem sum_4096 {M : Type*} [AddCommMonoid M] (f : ℕ → M) :
    ∑ k : Fin 4096, f k.val = ∑ s ∈ Finset.range 8, ∑ j : Fin 512, f (512 * s + j.val) :=
  sum_range_blocks 8 512 f

end Cert.BlockSum
-- ==== Proof.RowBlocks.lean ====
/-
  The batch totals as sums over 128 blocks of 256 consecutive rows.

  The loss of the batch sums the rows' losses over all 32768 rows; a grid of 128 points, each taking 256 consecutive
  rows, sums the same terms block by block. Addition on the extended reals is commutative and associative, so the two
  groupings agree whatever the terms are (infinities included).
-/
import proofs.«170875_j3427383902896_2_alg».proof.Proof.Spec
import proofs.«170875_j3427383902896_2_alg».proof.Proof.LibBlockSum

noncomputable section

namespace RankNet

open Idealize.ShloMosaic Idealize.ShloMosaic.ValueIdx

/-- The loss of the row at natural position n (0 past the end of the batch). -/
def lossAt (X : (⟨2, ![32768, 32]⟩ : Shape).Idx → EReal) (R : (⟨2, ![32768, 32]⟩ : Shape).Idx → BitVec 32)
    (M : (⟨2, ![32768, 32]⟩ : Shape).Idx → BitVec 1) (n : ℕ) : EReal :=
  if h : n < 32768 then
    rowLoss (fun j => X (ix2 (⟨n, h⟩ : Fin 32768) j)) (fun j => R (ix2 (⟨n, h⟩ : Fin 32768) j)) (fun j => M (ix2 (⟨n, h⟩ : Fin 32768) j))
  else 0

/-- 1 when the row at natural position n has a pair on, else 0 (0 past the end of the batch). -/
def indAt (R : (⟨2, ![32768, 32]⟩ : Shape).Idx → BitVec 32) (M : (⟨2, ![32768, 32]⟩ : Shape).Idx → BitVec 1) (n : ℕ) : EReal :=
  if h : n < 32768 then
    rowInd (fun j => R (ix2 (⟨n, h⟩ : Fin 32768) j)) (fun j => M (ix2 (⟨n, h⟩ : Fin 32768) j))
  else 0

/-- The batch's summed loss, block by block. -/
theorem total_eq_blocks (X : (⟨2, ![32768, 32]⟩ : Shape).Idx → EReal) (R : (⟨2, ![32768, 32]⟩ : Shape).Idx → BitVec 32)
    (M : (⟨2, ![32768, 32]⟩ : Shape).Idx → BitVec 1) :
    total X R M = ∑ s ∈ Finset.range 128, ∑ p : Fin 256, lossAt X R M (256 * s + p.val) := by
  have e : total X R M = ∑ b : Fin 32768, lossAt X R M b.val := by
    unfold total
    refine Finset.sum_congr rfl fun b _ => ?_
    unfold lossAt
    rw [dif_pos b.isLt]
  rw [e]
  exact Cert.BlockSum.sum_range_blocks 128 256 (lossAt X R M)

/-- The number of rows with a pair on, block by block. -/
theorem count_eq_blocks (R : (⟨2, ![32768, 32]⟩ : Shape).Idx → BitVec 32) (M : (⟨2, ![32768, 32]⟩ : Shape).Idx → BitVec 1) :
    count R M = ∑ s ∈ Finset.range 128, ∑ p : Fin 256, indAt R M (256 * s + p.val) := by
  have e : count R M = ∑ b : Fin 32768, indAt R M b.val := by
    unfold count
    refine Finset.sum_congr rfl fun b _ => ?_
    unfold indAt
    rw [dif_pos b.isLt]
  rw [e]
  exact Cert.BlockSum.sum_range_blocks 128 256 (indAt R M)

/-- A mask bit widened to 32 bits is nonzero exactly when the bit is set. -/
theorem ne_zero_setWidth (b : BitVec 1) : IntOp.cmpi .ne (b.setWidth 32) 0#32 = b := by
  revert b; decide

end RankNet

end
-- ==== Proof.Accum.lean ====
/-
  The running totals after each grid point are the sums over the blocks taken so far.

  One run of the body adds, to the loss total it finds, the losses of the 256 rows of the point's block, and to the
  count the number of those rows that have a pair on (the block's arithmetic, read at the extended reals). The first
  point starts from zero. So after point n the totals are the sums over blocks 0 … n, by induction on n; and the last
  point, 127, leaves the two finished totals in the two outputs.
-/
import proofs.«170875_j3427383902896_2_alg».proof.Proof.Steps
import proofs.«170875_j3427383902896_2_alg».proof.Proof.BlockRead
import proofs.«170875_j3427383902896_2_alg».proof.Proof.BlockSums
import proofs.«170875_j3427383902896_2_alg».proof.Proof.RowBlocks
import Idealize.ShloMosaic.PureOps.Ideal.Laws

set_option maxRecDepth 16384

noncomputable section

namespace Cert.KernelIdeal.RankValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The scores, ranks and mask bits the program is launched with, on core c. -/
abbrev scores : S32768x32.Idx → EReal := m ((c : Thread nD τ).loc main_arg0)
abbrev ranks : S32768x32.Idx → BitVec 32 := m ((c : Thread nD τ).loc main_arg1)
abbrev maskBits : S32768x32.Idx → BitVec 1 := m ((c : Thread nD τ).loc main_arg2)

/-- The summed loss of the rows of block s. -/
def blkLoss (s : ℕ) : EReal := ∑ p : Fin 256, RankNet.lossAt (scores m c) (ranks m c) (maskBits m c) (256 * s + p.val)
/-- The number of rows of block s that have a pair on. -/
def blkCnt (s : ℕ) : EReal := ∑ p : Fin 256, RankNet.indAt (ranks m c) (maskBits m c) (256 * s + p.val)

/-- Row p of the point's blocks, column by column, is row 256·t + p of the arguments (the mask read back as a bit). -/
theorem rows_of_block (t : Fin cfg0.N) (p : Fin 256) :
    (fun j : Fin 32 => iblk m c 0 t (ix2 p j)) = (fun j : Fin 32 => scores m c (ix2 (⟨256 * t.val + p.val, row_lt t p⟩ : Fin 32768) j))
    ∧ (fun j : Fin 32 => iblk m c 1 t (ix2 p j)) = (fun j : Fin 32 => ranks m c (ix2 (⟨256 * t.val + p.val, row_lt t p⟩ : Fin 32768) j))
    ∧ (fun j : Fin 32 => IntOp.cmpi .ne (iblk m c 2 t (ix2 p j)) 0#32)
        = (fun j : Fin 32 => maskBits m c (ix2 (⟨256 * t.val + p.val, row_lt t p⟩ : Fin 32768) j)) := by
  refine ⟨funext fun j => ?_, funext fun j => ?_, funext fun j => ?_⟩
  · exact (iblk0_apply m c t p j).trans (congrFun (V_main_arg0 m c) _)
  · exact (iblk1_apply m c t p j).trans (congrFun (V_main_arg1 m c) _)
  · rw [iblk2_apply m c t p j, congrFun (V_main_v0 m c) _]
    exact RankNet.ne_zero_setWidth _

/-- One run of the body adds the block's rows' losses to the loss total. -/
theorem step_loss (t : Fin cfg0.N) (acc : Vec Ideal S1x1 .f32) (y : S1x1.Idx) :
    newLoss (F := Ideal) (iblk m c 0 t) (iblk m c 1 t) (iblk m c 2 t) acc y = acc y + blkLoss m c t.val := by
  refine (RankNet.Block.loss_block (iblk m c 0 t) (iblk m c 1 t) (iblk m c 2 t) acc y).trans ?_
  refine congrArg (acc y + ·) (Finset.sum_congr rfl fun p _ => ?_)
  obtain ⟨e0, e1, e2⟩ := rows_of_block m c t p
  rw [e0, e1, e2, RankNet.lossAt, dif_pos (row_lt t p)]

/-- One run of the body adds the number of the block's rows that have a pair on to the count. -/
theorem step_cnt (t : Fin cfg0.N) (acc : Vec Ideal S1x1 .f32) (y : S1x1.Idx) :
    newCnt (F := Ideal) (iblk m c 1 t) (iblk m c 2 t) acc y = acc y + blkCnt m c t.val := by
  refine (RankNet.Block.count_block (iblk m c 1 t) (iblk m c 2 t) acc y).trans ?_
  refine congrArg (acc y + ·) (Finset.sum_congr rfl fun p _ => ?_)
  obtain ⟨-, e1, e2⟩ := rows_of_block m c t p
  rw [e1, e2, RankNet.indAt, dif_pos (row_lt t p)]

/-- The zero both totals start from. -/
theorem pay1_zero (y : S1x1.Idx) : k0_pay1 (F := Ideal) y = 0 := Ideal.ofBits_zero_f32
theorem pay2_zero (y : S1x1.Idx) : k0_pay2 (F := Ideal) y = 0 := Ideal.ofBits_zero_f32

/-- After point n the two totals are the sums over blocks 0 … n. -/
theorem totals_after : ∀ (n : ℕ) (hn : n < cfg0.N) (y : S1x1.Idx),
    (outsAt0 (F := Ideal) m c n hn).2.2.1 y = ∑ s ∈ Finset.range (n + 1), blkLoss m c s
    ∧ (outsAt0 (F := Ideal) m c n hn).2.2.2 y = ∑ s ∈ Finset.range (n + 1), blkCnt m c s
  | 0, hn, y => by
    have hN : cfg0.N = 128 := N_0
    constructor
    · refine (congrFun (loss_first m c ⟨0, hn⟩ rfl (by show ¬(0 : ℕ) % 128 = 127; decide)) y).trans ?_
      rw [step_loss, pay1_zero, zero_add, Finset.sum_range_one]
    · refine (congrFun (cnt_first m c ⟨0, hn⟩ rfl (by show ¬(0 : ℕ) % 128 = 127; decide)) y).trans ?_
      rw [step_cnt, pay2_zero, zero_add, Finset.sum_range_one]
  | n + 1, hn, y => by
    have hN : cfg0.N = 128 := N_0
    have h0 : ¬(n + 1) % 128 = 0 := by omega
    obtain ⟨ihL, ihC⟩ := totals_after n (Nat.lt_of_succ_lt hn) y
    by_cases h1 : (n + 1) % 128 = 127
    · constructor
      · refine (congrFun (loss_last m c ⟨n + 1, hn⟩ h0 h1) y).trans ?_
        rw [step_loss, Finset.sum_range_succ _ (n + 1)]
        exact congrArg (· + blkLoss m c (n + 1)) ihL
      · refine (congrFun (cnt_last m c ⟨n + 1, hn⟩ h0 h1) y).trans ?_
        rw [step_cnt, Finset.sum_range_succ _ (n + 1)]
        exact congrArg (· + blkCnt m c (n + 1)) ihC
    · constructor
      · refine (congrFun (loss_mid m c ⟨n + 1, hn⟩ h0 h1) y).trans ?_
        rw [step_loss, Finset.sum_range_succ _ (n + 1)]
        exact congrArg (· + blkLoss m c (n + 1)) ihL
      · refine (congrFun (cnt_mid m c ⟨n + 1, hn⟩ h0 h1) y).trans ?_
        rw [step_cnt, Finset.sum_range_succ _ (n + 1)]
        exact congrArg (· + blkCnt m c (n + 1)) ihC

/-- After the last point the two outputs hold the batch's summed loss and its number of rows with a pair on. -/
theorem outputs_last (t : Fin cfg0.N) (ht : t.val % 128 = 127) (y : S1x1.Idx) :
    (outsAt0 (F := Ideal) m c t.val t.isLt).1 y = RankNet.total (scores m c) (ranks m c) (maskBits m c)
    ∧ (outsAt0 (F := Ideal) m c t.val t.isLt).2.1 y = RankNet.count (ranks m c) (maskBits m c) := by
  have hN : cfg0.N = 128 := N_0
  have hv : t.val = 127 := by have := t.isLt; omega
  have h0 : ¬t.val % 128 = 0 := by omega
  obtain ⟨ihL, ihC⟩ := totals_after m c (t.val - 1) (Nat.lt_of_le_of_lt (Nat.sub_le _ _) t.isLt) y
  constructor
  · refine (congrFun (out3_last m c t h0 ht) y).trans ?_
    refine (step_loss m c t _ y).trans ?_
    rw [ihL, RankNet.total_eq_blocks, hv]
    exact (Finset.sum_range_succ (fun s => blkLoss m c s) 127).symm
  · refine (congrFun (out4_last m c t h0 ht) y).trans ?_
    refine (step_cnt m c t _ y).trans ?_
    rw [ihC, RankNet.count_eq_blocks, hv]
    exact (Finset.sum_range_succ (fun s => blkCnt m c s) 127).symm

end Cert.KernelIdeal.RankValue

end
-- ==== Proof.LibTypedRef.lean ====
/-
  A typed reference carries contents to its buffer's own type and back along the equation between the two types; there and
  back is the identity. (The operations of an outlined function are stated at the types of its values and moved to the
  buffers' types this way, so a value read back through several of them is wrapped once per operation; this removes
  every matched pair.) For any signature, buffer type and element values.
-/
import Idealize.ShloMosaic.Lib.StableHlo

namespace Cert.LibTypedRef

open Idealize.ShloMosaic Idealize.ShloMosaic.StableHlo

variable {sig : RefSig} {Val : EltTy → Type} {T : BufTy}

/-- Contents carried to a typed reference's buffer and back are unchanged. -/
theorem ofBuf_toBuf (x : TRef sig T) (v : T.Contents Val) : x.ofBuf (x.toBuf v) = v := by
  obtain ⟨r, h, hd, hu⟩ := x
  subst h
  rfl

end Cert.LibTypedRef
-- ==== Proof.LibTypedCast.lean ====
/-
  Reading and writing a buffer through a typed reference, without computing the buffer's type.

  A typed reference is a buffer together with an equation between the buffer's type and a stated type; contents are
  carried between the two types along that equation. When the buffer is a literal one, the equation holds by computing
  the buffer's type from the signature, and asking the carried contents to be THE SAME as the original by unfolding makes
  that computation again at every use. Here the carrying is removed by taking the reference apart and substituting its
  equation, so nothing is computed: the two contents only have to be heterogeneously equal, which an ordinary equation
  between them (stated at either type) gives. For any signature, buffer type and element values.
-/
import Idealize.ShloMosaic.Lib.StableHlo

namespace Cert.LibTypedCast

open Idealize.ShloMosaic Idealize.ShloMosaic.StableHlo

variable {sig : RefSig} {Val : EltTy → Type} {T : BufTy}

/-- Contents read through a typed reference: if the buffer's contents are (heterogeneously) `w`, the read is `w`. -/
theorem ofBuf_eq_of_heq (x : TRef sig T) (v : x.ref.ty.Contents Val) (w : T.Contents Val) (h : HEq v w) : x.ofBuf v = w := by
  obtain ⟨r, hr, hd, hu⟩ := x
  subst hr
  exact eq_of_heq h

/-- Contents written through a typed reference: the buffer holds (heterogeneously) what was written. -/
theorem toBuf_eq_of_heq (x : TRef sig T) (v : T.Contents Val) (w : x.ref.ty.Contents Val) (h : HEq v w) : x.toBuf v = w := by
  obtain ⟨r, hr, hd, hu⟩ := x
  subst hr
  exact eq_of_heq h

end Cert.LibTypedCast
-- ==== Proof.KernelValue.lean ====
/-
  What the idealized kernel's program returns: the ranking loss of its arguments.

  Each of the two outputs is one block [1, 1], written back to its array at the last grid point only; by then the body has
  left the batch's summed loss in the first and the number of rows with a pair on in the second. So after the region the
  two output arrays hold those two numbers, and the host lines after the region — reshape to scalars, compare the count
  with 0, divide by the larger of the count and 1, select — return the loss.
-/
import proofs.«170875_j3427383902896_2_alg».proof.Proof.Accum
import proofs.«170875_j3427383902896_2_alg».proof.Proof.LibTypedRef
import proofs.«170875_j3427383902896_2_alg».proof.Proof.LibTypedCast
import Idealize.ShloMosaic.Lib.Pipeline.Value
import Idealize.ShloMosaic.Lib.StableHlo.Run
import Idealize.ShloMosaic.Lib.IdealHost

set_option maxRecDepth 16384

noncomputable section

namespace Cert.KernelIdeal.RankValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The grid's last point exists. -/
theorem last_lt : 127 < cfg0.N := by rw [show cfg0.N = 128 from N_0]; norm_num

/-- The batch's summed loss and its number of rows with a pair on, of the arguments on core c. -/
abbrev tot : EReal := RankNet.total (scores m c) (ranks m c) (maskBits m c)
abbrev cnt : EReal := RankNet.count (ranks m c) (maskBits m c)

/-- What a flushing point writes back of output one, when the body left the number K in it at every index. -/
theorem flushed3_const (t : Fin cfg0.N) (K : EReal)
    (hK : ∀ y : S1x1.Idx, (outsAt0 (F := Ideal) m c t.val t.isLt).1 y = K) :
    (dats m 0 c).flushed 3 t = ((cfg0.win 3).blk t).view.read (Elt Ideal) (fun _ => K) := by
  funext y
  have e : (dats m 0 c).flushed 3 t y = (cfg0.win 3).cut (grid0.coords t) ((outsAt0 m c t.val t.isLt).1) y :=
    congrFun (congrArg ((cfg0.win 3).cut (grid0.coords t)) (after0_3 m c t)) y
  exact e.trans (hK _)

/-- What a flushing point writes back of output two, when the body left the number K in it at every index. -/
theorem flushed4_const (t : Fin cfg0.N) (K : EReal)
    (hK : ∀ y : S1x1.Idx, (outsAt0 (F := Ideal) m c t.val t.isLt).2.1 y = K) :
    (dats m 0 c).flushed 4 t = ((cfg0.win 4).blk t).view.read (Elt Ideal) (fun _ => K) := by
  funext y
  have e : (dats m 0 c).flushed 4 t y = (cfg0.win 4).cut (grid0.coords t) ((outsAt0 m c t.val t.isLt).2.1) y :=
    congrFun (congrArg ((cfg0.win 4).cut (grid0.coords t)) (after0_4 m c t)) y
  exact e.trans (hK _)

/-- The last point's block of the first output is the whole array. -/
theorem cover3 (i : S1x1.Idx) : ∃ t : Fin cfg0.N, (cfg0.win 3).flush t = true ∧ i ∈ ((cfg0.win 3).blk t).view.set := by
  refine ⟨⟨127, last_lt⟩, (flush0_3 _).mpr rfl, ?_⟩
  obtain ⟨-, -, -, -, -, -, e0, e1, -⟩ := blk_index ⟨127, last_lt⟩
  show i ∈ ((View.whole main_v1_0).slice (win0_3.rect ⟨127, last_lt⟩)).set
  rw [View.set_slice_whole, Rect.mem_set_unit]
  intro a
  match a with
  | ⟨0, _⟩ =>
    show win0_3.index ⟨127, last_lt⟩ (0 : Fin 2) * 1 ≤ (i 0).val ∧ (i 0).val < win0_3.index ⟨127, last_lt⟩ (0 : Fin 2) * 1 + 1
    have hi : (i 0).val < 1 := (i 0).isLt
    omega
  | ⟨1, _⟩ =>
    show win0_3.index ⟨127, last_lt⟩ (1 : Fin 2) * 1 ≤ (i 1).val ∧ (i 1).val < win0_3.index ⟨127, last_lt⟩ (1 : Fin 2) * 1 + 1
    have hi : (i 1).val < 1 := (i 1).isLt
    omega

/-- The last point's block of the second output is the whole array. -/
theorem cover4 (i : S1x1.Idx) : ∃ t : Fin cfg0.N, (cfg0.win 4).flush t = true ∧ i ∈ ((cfg0.win 4).blk t).view.set := by
  refine ⟨⟨127, last_lt⟩, (flush0_4 _).mpr rfl, ?_⟩
  obtain ⟨-, -, -, -, -, -, -, -, e0, e1⟩ := blk_index ⟨127, last_lt⟩
  show i ∈ ((View.whole main_v1_1).slice (win0_4.rect ⟨127, last_lt⟩)).set
  rw [View.set_slice_whole, Rect.mem_set_unit]
  intro a
  match a with
  | ⟨0, _⟩ =>
    show win0_4.index ⟨127, last_lt⟩ (0 : Fin 2) * 1 ≤ (i 0).val ∧ (i 0).val < win0_4.index ⟨127, last_lt⟩ (0 : Fin 2) * 1 + 1
    have hi : (i 0).val < 1 := (i 0).isLt
    omega
  | ⟨1, _⟩ =>
    show win0_4.index ⟨127, last_lt⟩ (1 : Fin 2) * 1 ≤ (i 1).val ∧ (i 1).val < win0_4.index ⟨127, last_lt⟩ (1 : Fin 2) * 1 + 1
    have hi : (i 1).val < 1 := (i 1).isLt
    omega

/-- An output the last point leaves the number K in ends holding K: only the last point writes it back, and its block
    is the whole array. -/
theorem final3_const (K : EReal)
    (hK : ∀ t : Fin cfg0.N, t.val % 128 = 127 → ∀ y : S1x1.Idx, (outsAt0 (F := Ideal) m c t.val t.isLt).1 y = K) :
    (dats m 0 c).arrAt 3 cfg0.N = fun _ => K :=
  (dats m 0 c).arrAt_eq_of_cover 3 (fun _ => K) (fun t hf => flushed3_const m c t K (hK t ((flush0_3 t).mp hf))) (cover3)

theorem final4_const (K : EReal)
    (hK : ∀ t : Fin cfg0.N, t.val % 128 = 127 → ∀ y : S1x1.Idx, (outsAt0 (F := Ideal) m c t.val t.isLt).2.1 y = K) :
    (dats m 0 c).arrAt 4 cfg0.N = fun _ => K :=
  (dats m 0 c).arrAt_eq_of_cover 4 (fun _ => K) (fun t hf => flushed4_const m c t K (hK t ((flush0_4 t).mp hf))) (cover4)

/-- After the region the first output array holds the batch's summed loss. -/
theorem final3 : (dats m 0 c).arrAt 3 cfg0.N = fun _ => tot m c :=
  final3_const m c (tot m c) (fun t ht y => (outputs_last m c t ht y).1)

/-- After the region the second output array holds the number of rows with a pair on. -/
theorem final4 : (dats m 0 c).arrAt 4 cfg0.N = fun _ => cnt m c :=
  final4_const m c (cnt m c) (fun t ht y => (outputs_last m c t ht y).2)

/-- The host lines after the region return the loss from the two totals. -/
theorem tail_result :
    Pipeline.afterTail₀ cfgs (dats m) 0 (V0 m) [hostOps1, hostOps1_1] c main_v7 = fun _ => RankNet.finish (tot m c) (cnt m c) := by
  unfold Pipeline.afterTail₀
  simp only [hostOps1, hostOps1_1, List.flatten_cons, List.flatten_nil, List.append_nil, List.cons_append, List.nil_append]
  after_results
  have e3 : Pipeline.withArrays (cfgs 0).spec c (V0 m c) (fun w => (dats m 0 c).arrAt w (cfgs 0).N) (Proc.devRef .tc main_v1_0)
      = fun _ => tot m c := (Pipeline.withArrays_arr spec0 launch0.win.arr_inj c _ _ 3).trans (final3 m c)
  have e4 : Pipeline.withArrays (cfgs 0).spec c (V0 m c) (fun w => (dats m 0 c).arrAt w (cfgs 0).N) (Proc.devRef .tc main_v1_1)
      = fun _ => cnt m c := (Pipeline.withArrays_arr spec0 launch0.win.arr_inj c _ _ 4).trans (final4 m c)
  rw [e3, e4]
  clear e3 e4
  unfold RankNet.finish
  generalize tot m c = T
  generalize cnt m c = C
  simp only [Cert.LibTypedRef.ofBuf_toBuf]
  refine Cert.LibTypedCast.toBuf_eq_of_heq _ _ _ (heq_of_eq ?_)
  funext i
  show Scalar.select (Ideal.cmp .ogt C (Ideal.ofBits .f32 0x00000000#32))
      (Ideal.div T (max C (Ideal.ofBits .f32 0x3F800000#32))) (Ideal.ofBits .f32 0x00000000#32)
    = Scalar.select (Ideal.cmp .ogt C 0) (Ideal.div T (max C 1)) 0
  rw [Ideal.ofBits_zero_f32, Ideal.ofBits_one_f32]

/-- The idealized kernel's program runs, returns the ranking loss of its arguments, and leaves them unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7)
        = (fun _ => RankNet.result (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v7 (Pipeline.mem_restRefs_of main_v7 (by decide) (by decide))).trans (tail_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.RankValue

end
-- ==== Proof.RefSide.lean ====
/-
  The reference program's result, read index by index at the extended reals, is the ranking loss of its three arguments.
-/
import proofs.«170875_j3427383902896_2_alg».proof.Proof.RefRead
import proofs.«170875_j3427383902896_2_alg».proof.Proof.Spec
import Idealize.ShloMosaic.PureOps.Ideal.Laws
import Idealize.ShloMosaic.Lib.ValueIdx
import Idealize.ShloMosaic.Lib.Pipeline.Value
import Idealize.ShloMosaic.Lib.IdealHost

noncomputable section

namespace RankNet.Ref

open Idealize.ShloMosaic Idealize.ShloMosaic.ValueIdx Cert.ReferenceIdeal

/-- Dropping the last two coordinates of (p, a, b) leaves p. -/
theorem drop12_ix3 (h : S32768x32x32.ReducesTo [1, 2] S32768) (p : Fin 32768) (a b : Fin 32) :
    h.drop (ix3 p a b) = ix1 p := by
  funext d
  match d with
  | ⟨0, _⟩ => rfl

/-- An index whose first coordinate is p is (p, ·, ·) of its other two coordinates. -/
theorem drop12_eq (h : S32768x32x32.ReducesTo [1, 2] S32768) (i : S32768x32x32.Idx) (p : Fin 32768)
    (hi : h.drop i = ix1 p) : i = ix3 p (i 1) (i 2) := by
  have h0 : i 0 = p := by
    have := congrFun hi 0
    exact this
  rw [← h0]; exact eq_ix3 i

/-- A sum over the last two axes of a [32768, 32, 32] array, read at row p: the initial value plus the double sum
    over the two coordinates (the pairs (a, b) ↦ (p, a, b) are exactly the indices that drop to p). -/
theorem reduce12 (h : S32768x32x32.ReducesTo [1, 2] S32768) (x : S32768x32x32.Idx → EReal) (init : EReal) (p : Fin 32768) :
    Ideal.hostReduceAdd h x init (ix1 p) = init + ∑ a : Fin 32, ∑ b : Fin 32, x (ix3 p a b) := by
  unfold Ideal.hostReduceAdd
  refine congrArg (fun s => init + s) ?_
  rw [← Finset.sum_product']
  symm
  refine Finset.sum_nbij' (fun ab => ix3 p ab.1 ab.2) (fun i => (i 1, i 2)) ?_ ?_ ?_ ?_ ?_
  · intro ab _
    simp only [Finset.mem_filter, Finset.mem_univ, true_and]
    exact drop12_ix3 h p ab.1 ab.2
  · intro i _
    simp
  · intro ab _
    rfl
  · intro i hi
    simp only [Finset.mem_filter, Finset.mem_univ, true_and] at hi
    exact (drop12_eq h i p hi).symm
  · intro ab _
    rfl

open Cert.ReferenceIdeal.ReadP

/-- Two rank-2 indices with the same two coordinates are equal. -/
local macro "idx2" : tactic => `(tactic| (funext a; match a with | ⟨0, _⟩ => rfl | ⟨1, _⟩ => rfl))

/-- An entry's validity bit, at row b, entry i. -/
theorem v4_at (x1 : (⟨S32768x32, .i32⟩ : BufTy).Contents (Elt Ideal)) (x2 : (⟨S32768x32, .i1⟩ : BufTy).Contents (Elt Ideal))
    (k : S32768x32.Idx) :
    val_main_v4 (F := Ideal) x1 x2 k = RankNet.valid (x1 k) (x2 k) := by
  rw [val_main_v4_apply, val_main_v3_apply, val_main_v2_apply, val_main_c_apply]
  rfl

/-- The first entry's validity bit, spread over the pairs of a row. -/
theorem v9_at (x1 : (⟨S32768x32, .i32⟩ : BufTy).Contents (Elt Ideal)) (x2 : (⟨S32768x32, .i1⟩ : BufTy).Contents (Elt Ideal))
    (b : Fin 32768) (i j : Fin 32) :
    val_main_v9 (F := Ideal) x1 x2 (ix3 b i j) = val_main_v4 (F := Ideal) x1 x2 (ix2 b i) := by
  rw [val_main_v9_apply, val_main_v7_apply]
  exact congrArg _ (by idx2)

/-- The second entry's validity bit, spread over the pairs of a row. -/
theorem v10_at (x1 : (⟨S32768x32, .i32⟩ : BufTy).Contents (Elt Ideal)) (x2 : (⟨S32768x32, .i1⟩ : BufTy).Contents (Elt Ideal))
    (b : Fin 32768) (i j : Fin 32) :
    val_main_v10 (F := Ideal) x1 x2 (ix3 b i j) = val_main_v4 (F := Ideal) x1 x2 (ix2 b j) := by
  rw [val_main_v10_apply, val_main_v8_apply]
  exact congrArg _ (by idx2)

/-- The first entry's rank, spread over the pairs of a row … -/
theorem v12_at (x1 : (⟨S32768x32, .i32⟩ : BufTy).Contents (Elt Ideal)) (b : Fin 32768) (i j : Fin 32) :
    val_main_v12 (F := Ideal) x1 (ix3 b i j) = x1 (ix2 b i) := by
  rw [val_main_v12_apply, val_main_v5_apply]
  exact congrArg _ (by idx2)

/-- … and the second entry's. -/
theorem v13_at (x1 : (⟨S32768x32, .i32⟩ : BufTy).Contents (Elt Ideal)) (b : Fin 32768) (i j : Fin 32) :
    val_main_v13 (F := Ideal) x1 (ix3 b i j) = x1 (ix2 b j) := by
  rw [val_main_v13_apply, val_main_v6_apply]
  exact congrArg _ (by idx2)

/-- The same two spreads again, as the target's comparison reads them. -/
theorem v16_at (x1 : (⟨S32768x32, .i32⟩ : BufTy).Contents (Elt Ideal)) (b : Fin 32768) (i j : Fin 32) :
    val_main_v16 (F := Ideal) x1 (ix3 b i j) = x1 (ix2 b i) := by
  rw [val_main_v16_apply, val_main_v5_apply]
  exact congrArg _ (by idx2)

theorem v17_at (x1 : (⟨S32768x32, .i32⟩ : BufTy).Contents (Elt Ideal)) (b : Fin 32768) (i j : Fin 32) :
    val_main_v17 (F := Ideal) x1 (ix3 b i j) = x1 (ix2 b j) := by
  rw [val_main_v17_apply, val_main_v6_apply]
  exact congrArg _ (by idx2)

/-- The pair weight at row b, pair (i, j). -/
theorem v45_at (x1 : (⟨S32768x32, .i32⟩ : BufTy).Contents (Elt Ideal)) (x2 : (⟨S32768x32, .i1⟩ : BufTy).Contents (Elt Ideal))
    (b : Fin 32768) (i j : Fin 32) :
    val_main_v45 (F := Ideal) x1 x2 (ix3 b i j)
      = RankNet.pairOn (x1 (ix2 b i)) (x1 (ix2 b j)) (RankNet.valid (x1 (ix2 b i)) (x2 (ix2 b i)))
          (RankNet.valid (x1 (ix2 b j)) (x2 (ix2 b j))) := by
  rw [val_main_v45_apply, val_main_v15_apply, val_main_v11_apply, val_main_v14_apply, v9_at, v10_at, v12_at, v13_at,
    v4_at, v4_at]
  rfl

/-- Dividing by the real number one changes nothing. -/
theorem div_one' (x : EReal) : Ideal.div x 1 = x := by
  rw [← EReal.coe_one, Ideal.div_coe one_ne_zero, one_div, inv_one, EReal.coe_one, mul_one]

/-- The scores divided by the constant one are the scores. -/
theorem v1_at (x0 : (⟨S32768x32, .f32⟩ : BufTy).Contents (Elt Ideal)) (k : S32768x32.Idx) : val_main_v1 (F := Ideal) x0 k = x0 k := by
  rw [val_main_v1_apply, val_main_v0_apply, val_main_cst_apply]
  show Ideal.div (x0 k) (Ideal.ofBits .f32 0x3F800000#32) = x0 k
  rw [Ideal.ofBits_one_f32]
  exact div_one' _

/-- The first entry's score, spread over the pairs of a row … -/
theorem v22_at (x0 : (⟨S32768x32, .f32⟩ : BufTy).Contents (Elt Ideal)) (b : Fin 32768) (i j : Fin 32) :
    val_main_v22 (F := Ideal) x0 (ix3 b i j) = x0 (ix2 b i) := by
  rw [val_main_v22_apply, val_main_v20_apply, v1_at]
  exact congrArg _ (by idx2)

/-- … and the second entry's. -/
theorem v23_at (x0 : (⟨S32768x32, .f32⟩ : BufTy).Contents (Elt Ideal)) (b : Fin 32768) (i j : Fin 32) :
    val_main_v23 (F := Ideal) x0 (ix3 b i j) = x0 (ix2 b j) := by
  rw [val_main_v23_apply, val_main_v21_apply, v1_at]
  exact congrArg _ (by idx2)

/-- The constant arrays: one, one, one, one, ε, ε. -/
theorem v27_at (k : S32768x32x32.Idx) : val_main_v27 (F := Ideal) k = (1 : EReal) := by
  rw [val_main_v27_apply, val_main_cst_0_apply]; exact Ideal.ofBits_one_f32
theorem v29_at (k : S32768x32x32.Idx) : val_main_v29 (F := Ideal) k = (1 : EReal) := by
  rw [val_main_v29_apply, val_main_cst_1_apply]; exact Ideal.ofBits_one_f32
theorem v36_at (k : S32768x32x32.Idx) : val_main_v36 (F := Ideal) k = (1 : EReal) := by
  rw [val_main_v36_apply, val_main_cst_3_apply]; exact Ideal.ofBits_one_f32
theorem v38_at (k : S32768x32x32.Idx) : val_main_v38 (F := Ideal) k = (1 : EReal) := by
  rw [val_main_v38_apply, val_main_cst_4_apply]; exact Ideal.ofBits_one_f32
theorem v32_at (k : S32768x32x32.Idx) : val_main_v32 (F := Ideal) k = RankNet.eps := by
  rw [val_main_v32_apply, val_main_cst_2_apply]; rfl
theorem v40_at (k : S32768x32x32.Idx) : val_main_v40 (F := Ideal) k = RankNet.eps := by
  rw [val_main_v40_apply, val_main_cst_5_apply]; rfl

/-- The pair's target at row b, pair (i, j). -/
theorem v19_at (x1 : (⟨S32768x32, .i32⟩ : BufTy).Contents (Elt Ideal)) (b : Fin 32768) (i j : Fin 32) :
    val_main_v19 (F := Ideal) x1 (ix3 b i j) = RankNet.target (x1 (ix2 b i)) (x1 (ix2 b j)) := by
  rw [val_main_v19_apply, val_main_v18_apply, v16_at, v17_at]
  rfl

/-- The spelt-out logistic of the score difference. -/
theorem v30_at (x0 : (⟨S32768x32, .f32⟩ : BufTy).Contents (Elt Ideal)) (b : Fin 32768) (i j : Fin 32) :
    val_main_v30 (F := Ideal) x0 (ix3 b i j) = Ideal.logistic (x0 (ix2 b i) - x0 (ix2 b j)) := by
  rw [val_main_v30_apply, v29_at, val_main_v28_apply, v27_at, val_main_v26_apply, val_main_v25_apply,
    val_main_v24_apply, v22_at, v23_at]
  rfl

/-- The pair's cross-entropy at row b, pair (i, j). -/
theorem v44_at (x0 : (⟨S32768x32, .f32⟩ : BufTy).Contents (Elt Ideal)) (x1 : (⟨S32768x32, .i32⟩ : BufTy).Contents (Elt Ideal)) (b : Fin 32768) (i j : Fin 32) :
    val_main_v44 (F := Ideal) x0 x1 (ix3 b i j)
      = RankNet.pairLoss (x0 (ix2 b i)) (x0 (ix2 b j)) (x1 (ix2 b i)) (x1 (ix2 b j)) := by
  rw [val_main_v44_apply, val_main_v35_apply, val_main_v43_apply, val_main_v31_apply, val_main_v34_apply,
    val_main_v33_apply, val_main_v37_apply, val_main_v42_apply, val_main_v41_apply, val_main_v39_apply,
    v19_at, v30_at, v32_at, v36_at, v38_at, v40_at]
  rfl

/-- The weighted pair loss at row b, pair (i, j). -/
theorem v46_at (x0 : (⟨S32768x32, .f32⟩ : BufTy).Contents (Elt Ideal)) (x1 : (⟨S32768x32, .i32⟩ : BufTy).Contents (Elt Ideal)) (x2 : (⟨S32768x32, .i1⟩ : BufTy).Contents (Elt Ideal)) (b : Fin 32768) (i j : Fin 32) :
    val_main_v46 (F := Ideal) x0 x1 x2 (ix3 b i j)
      = RankNet.pairLoss (x0 (ix2 b i)) (x0 (ix2 b j)) (x1 (ix2 b i)) (x1 (ix2 b j))
        * RankNet.pairOn (x1 (ix2 b i)) (x1 (ix2 b j)) (RankNet.valid (x1 (ix2 b i)) (x2 (ix2 b i)))
          (RankNet.valid (x1 (ix2 b j)) (x2 (ix2 b j))) := by
  rw [val_main_v46_apply, v44_at, v45_at]
  rfl

/-- The rows' summed losses: the sum over the last two axes, read at row b. -/
theorem v47_at (x0 : (⟨S32768x32, .f32⟩ : BufTy).Contents (Elt Ideal)) (x1 : (⟨S32768x32, .i32⟩ : BufTy).Contents (Elt Ideal)) (x2 : (⟨S32768x32, .i1⟩ : BufTy).Contents (Elt Ideal)) (b : Fin 32768) :
    val_main_v47 (F := Ideal) x0 x1 x2 (ix1 b)
      = RankNet.rowSum (fun j => x0 (ix2 b j)) (fun j => x1 (ix2 b j)) (fun j => x2 (ix2 b j)) := by
  unfold val_main_v47
  rw [hostReduceAdd_apply, reduce12, val_main_cst_6_apply]
  show Ideal.ofBits .f32 0x00000000#32 + _ = _
  rw [Ideal.ofBits_zero_f32, zero_add]
  unfold RankNet.rowSum
  exact Finset.sum_congr rfl (fun a _ => Finset.sum_congr rfl (fun c _ => v46_at x0 x1 x2 b a c))

/-- The rows' pair counts: the sum over the last two axes, read at row b. -/
theorem v48_at (x1 : (⟨S32768x32, .i32⟩ : BufTy).Contents (Elt Ideal)) (x2 : (⟨S32768x32, .i1⟩ : BufTy).Contents (Elt Ideal)) (b : Fin 32768) :
    val_main_v48 (F := Ideal) x1 x2 (ix1 b)
      = RankNet.rowCnt (fun j => x1 (ix2 b j)) (fun j => x2 (ix2 b j)) := by
  unfold val_main_v48
  rw [hostReduceAdd_apply, reduce12, val_main_cst_7_apply]
  show Ideal.ofBits .f32 0x00000000#32 + _ = _
  rw [Ideal.ofBits_zero_f32, zero_add]
  unfold RankNet.rowCnt
  exact Finset.sum_congr rfl (fun a _ => Finset.sum_congr rfl (fun c _ => v45_at x1 x2 b a c))

/-- The constant arrays over the rows: zero, one, zero. -/
theorem v49_at (k : S32768.Idx) : val_main_v49 (F := Ideal) k = (0 : EReal) := by
  rw [val_main_v49_apply, val_main_cst_8_apply]; exact Ideal.ofBits_zero_f32
theorem v51_at (k : S32768.Idx) : val_main_v51 (F := Ideal) k = (1 : EReal) := by
  rw [val_main_v51_apply, val_main_cst_9_apply]; exact Ideal.ofBits_one_f32
theorem call0_v1_at (k : S32768.Idx) : val_main_call0_v1 (F := Ideal) k = (0 : EReal) := by
  rw [val_main_call0_v1_apply, val_main_call0_v0_apply, val_main_cst_10_apply]; exact Ideal.ofBits_zero_f32

/-- Whether row b has a pair on. -/
theorem v50_at (x1 : (⟨S32768x32, .i32⟩ : BufTy).Contents (Elt Ideal)) (x2 : (⟨S32768x32, .i1⟩ : BufTy).Contents (Elt Ideal)) (b : Fin 32768) :
    val_main_v50 (F := Ideal) x1 x2 (ix1 b) = RankNet.rowHas (fun j => x1 (ix2 b j)) (fun j => x2 (ix2 b j)) := by
  rw [val_main_v50_apply, v48_at, v49_at]
  rfl

/-- Row b's loss. -/
theorem v54_at (x0 : (⟨S32768x32, .f32⟩ : BufTy).Contents (Elt Ideal)) (x1 : (⟨S32768x32, .i32⟩ : BufTy).Contents (Elt Ideal)) (x2 : (⟨S32768x32, .i1⟩ : BufTy).Contents (Elt Ideal)) (b : Fin 32768) :
    val_main_v54 (F := Ideal) x0 x1 x2 (ix1 b)
      = RankNet.rowLoss (fun j => x0 (ix2 b j)) (fun j => x1 (ix2 b j)) (fun j => x2 (ix2 b j)) := by
  rw [val_main_v54_apply, val_main_v53_apply, val_main_v52_apply, v50_at, v47_at, v48_at, v51_at, call0_v1_at]
  rfl

/-- Row b's indicator. -/
theorem v55_at (x1 : (⟨S32768x32, .i32⟩ : BufTy).Contents (Elt Ideal)) (x2 : (⟨S32768x32, .i1⟩ : BufTy).Contents (Elt Ideal)) (b : Fin 32768) :
    val_main_v55 (F := Ideal) x1 x2 (ix1 b) = RankNet.rowInd (fun j => x1 (ix2 b j)) (fun j => x2 (ix2 b j)) := by
  rw [val_main_v55_apply, v50_at]
  rfl

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The number of rows with a pair on. -/
theorem v56_at (x1 : (⟨S32768x32, .i32⟩ : BufTy).Contents (Elt Ideal)) (x2 : (⟨S32768x32, .i1⟩ : BufTy).Contents (Elt Ideal)) (k : S_.Idx) :
    val_main_v56 (F := Ideal) x1 x2 k = RankNet.count x1 x2 := by
  rw [val_main_v56_apply, val_main_cst_11_apply, sum_idx1]
  show Ideal.ofBits .f32 0x00000000#32 + _ = _
  rw [Ideal.ofBits_zero_f32, zero_add]
  unfold RankNet.count
  exact Finset.sum_congr rfl (fun b _ => v55_at x1 x2 b)

/-- The rows' losses summed over the batch. -/
theorem v58_at (x0 : (⟨S32768x32, .f32⟩ : BufTy).Contents (Elt Ideal)) (x1 : (⟨S32768x32, .i32⟩ : BufTy).Contents (Elt Ideal)) (x2 : (⟨S32768x32, .i1⟩ : BufTy).Contents (Elt Ideal)) (k : S_.Idx) :
    val_main_v58 (F := Ideal) x0 x1 x2 k = RankNet.total x0 x1 x2 := by
  rw [val_main_v58_apply, val_main_cst_13_apply, sum_idx1]
  show Ideal.ofBits .f32 0x00000000#32 + _ = _
  rw [Ideal.ofBits_zero_f32, zero_add]
  unfold RankNet.total
  exact Finset.sum_congr rfl (fun b _ => v54_at x0 x1 x2 b)

/-- The reference's last stage is the ranking loss of the argument arrays (at its one index). -/
theorem value_eq (x0 : (⟨S32768x32, .f32⟩ : BufTy).Contents (Elt Ideal)) (x1 : (⟨S32768x32, .i32⟩ : BufTy).Contents (Elt Ideal))
    (x2 : (⟨S32768x32, .i1⟩ : BufTy).Contents (Elt Ideal)) :
    Cert.ReferenceIdeal.ReadP.val_main_v61 (F := Ideal) x0 x1 x2 = fun _ => RankNet.result x0 x1 x2 := by
  funext k
  rw [val_main_v61_apply, val_main_v57_apply, val_main_v60_apply, val_main_v59_apply, v56_at, v58_at,
    val_main_call1_v0_apply, val_main_cst_15_apply, val_main_cst_12_apply, val_main_cst_14_apply]
  show Scalar.select (Ideal.cmp .ogt (RankNet.count x1 x2) (Ideal.ofBits .f32 0x00000000#32))
      (Ideal.div (RankNet.total x0 x1 x2) (max (RankNet.count x1 x2) (Ideal.ofBits .f32 0x3F800000#32)))
      (Ideal.ofBits .f32 0x00000000#32) = _
  rw [Ideal.ofBits_zero_f32, Ideal.ofBits_one_f32]
  rfl

end RankNet.Ref

end
-- ==== Proof.lean ====
/-
  The pairwise logistic ranking loss: a kernel that streams the batch in 128 blocks of 256 rows, keeping a running loss
  total and a running count of the rows that have a valid pair, against the plain reference that sums over the whole batch.

  Both programs compute one function of the scores, ranks and mask (Proof/Spec.lean): per row the mean, over the ordered
  pairs of entries that both count and have different ranks, of the cross-entropy of "i ranks before j" against the
  logistic of the score difference; then the mean of the rows' losses over the rows that have such a pair. At the extended
  reals the two differ only in spelling (the logistic as one operation or as 1 / (1 + e⁻ˣ); x · 1 or x / 1; 0 − p or −p; a
  product of 0/1 integers or a conjunction of bits) and in the grouping of the sums: the kernel sums a row's 32 × 32 pairs
  lane by lane, a block's 256 rows, and the 128 blocks one after the other, the reference sums each row's pairs at once
  and then all 32768 rows. Addition on the extended reals is commutative and associative, so no finiteness is needed.

  Proof/BlockSums.lean reads one run of the kernel's body as "add the block's rows' losses / count"; Proof/Pieces.lean and
  Proof/Steps.lean read what the body leaves in its two running totals per grid point; Proof/Accum.lean sums them over the
  grid by induction; Proof/KernelValue.lean reads the two outputs after the region and the host lines after it;
  Proof/RefSide.lean reads the reference, stage by stage.
-/
import proofs.«170875_j3427383902896_2_alg».proof.Defs
import proofs.«170875_j3427383902896_2_alg».proof.Proof.Gen.Kernel
import proofs.«170875_j3427383902896_2_alg».proof.Proof.Gen.Kernel.Frame
import proofs.«170875_j3427383902896_2_alg».proof.Proof.Gen.KernelIdeal
import proofs.«170875_j3427383902896_2_alg».proof.Proof.Gen.KernelIdeal.Frame
import proofs.«170875_j3427383902896_2_alg».proof.Proof.Gen.ReferenceIdeal
import proofs.«170875_j3427383902896_2_alg».proof.Proof.Gen.Pre_finite_inputs
import proofs.«170875_j3427383902896_2_alg».proof.Proof.KernelValue
import proofs.«170875_j3427383902896_2_alg».proof.Proof.RefSide
import Idealize.ShloMosaic.Adequacy
import Idealize.ShloMosaic.Init

noncomputable section

namespace Cert.Proof

open Idealize.ShloMosaic Idealize.SL.Sem

namespace RankClaims

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From arguments that agree, both programs end with the ranking loss of those arguments. -/
theorem algebraic : Cert.algebraic_KernelIdeal_ReferenceIdeal := by
  intro m ρ m' ρ' _ hagree
  refine ⟨_, Cert.KernelIdeal.RankValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, RankNet.Ref.value_eq, (hagree c).1, (hagree c).2.1, (hagree c).2.2]
  rfl

end RankClaims

theorem claim : Cert.Claim :=
  ⟨Cert.Kernel.Gen.facts, Cert.KernelIdeal.Gen.facts, Cert.ReferenceIdeal.Gen.facts, Cert.Pre_finite_inputs.Gen.facts,
    RankClaims.frame_kernel, RankClaims.frame_kernelIdeal, RankClaims.frame_referenceIdeal, trivial, RankClaims.algebraic⟩

end Cert.Proof

end
